-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg6 : FVec F S128 .f32) (main_arg7 : FVec F S64x128 .f32) (main_arg8 : FVec F S64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S64x128 .f32 := Host.absf main_arg7
  let main_cst_8 : FVec F S_ .f32 := constant S_ .f32 0x7F800000#32
  let main_v25 : FVec F S64x128 .f32 := broadcastInDim S64x128 ![] bcast_S_S64x128 main_cst_8
  let main_v26 : IVec S64x128 1 := cmpf .olt main_v24 main_v25
  let main_c_9 : IVec S_ 1 := constantI S_ 1 1#1
  let main_v27 : IVec S_ 1 := (fun x v => Host.reduce IntOp.andi x v reducesTo_S64x128_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S100000x128 .f32) (main_arg1 : IVec S1600000 32) (main_arg2 : IVec S1600000 32) (main_arg3 : FVec F S128x128 .f32) (main_arg4 : FVec F S128 .f32) (main_arg5 : FVec F S128x128 .f32) (main_arg6 : FVec F S128 .f32) (main_arg7 : FVec F S64x128 .f32) (main_arg8 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_v13 main_v16
-- ==== Kernel.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩
abbrev S4000x128 : Shape := ⟨2, ![4000, 128]⟩
abbrev S4000x1 : Shape := ⟨2, ![4000, 1]⟩
abbrev S128x64 : Shape := ⟨2, ![128, 64]⟩
abbrev S1x64 : Shape := ⟨2, ![1, 64]⟩
abbrev S100000x64 : Shape := ⟨2, ![100000, 64]⟩
abbrev S4000x64 : Shape := ⟨2, ![4000, 64]⟩

abbrev nBuf : Space → Nat
  | .hbm => 70
  | .vmem => 30
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S64x128, .f32⟩
  | .hbm, ⟨8, _⟩ => ⟨S64, .f32⟩
  | .hbm, ⟨9, _⟩ => ⟨S_, .f32⟩
  | .hbm, ⟨10, _⟩ => ⟨S1600000, .f32⟩
  | .hbm, ⟨11, _⟩ => ⟨S_, .f32⟩
  | .hbm, ⟨12, _⟩ => ⟨S100000, .f32⟩
  | .hbm, ⟨13, _⟩ => ⟨S1600000x1, .i32⟩
  | .hbm, ⟨14, _⟩ => ⟨S100000, .f32⟩
  | .hbm, ⟨15, _⟩ => ⟨S_, .f32⟩
  | .hbm, ⟨16, _⟩ => ⟨S100000, .f32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S100000x1, .f32⟩
  | .hbm, ⟨22, _⟩ => ⟨S_, .i32⟩
  | .hbm, ⟨23, _⟩ => ⟨S1600000, .i32⟩
  | .hbm, ⟨24, _⟩ => ⟨S1600000, .i1⟩
  | .hbm, ⟨25, _⟩ => ⟨S_, .i32⟩
  | .hbm, ⟨26, _⟩ => ⟨S1600000, .i32⟩
  | .hbm, ⟨27, _⟩ => ⟨S1600000, .i32⟩
  | .hbm, ⟨28, _⟩ => ⟨S1600000, .i32⟩
  | .hbm, ⟨29, _⟩ => ⟨S1600000x1, .i32⟩
  | .hbm, ⟨30, _⟩ => ⟨S1600000x128, .f32⟩
  | .hbm, ⟨31, _⟩ => ⟨S_, .f32⟩
  | .hbm, ⟨32, _⟩ => ⟨S100000x128, .f32⟩
  | .hbm, ⟨33, _⟩ => ⟨S1600000x1, .i32⟩
  | .hbm, ⟨34, _⟩ => ⟨S100000x128, .f32⟩
  | .hbm, ⟨35, _⟩ => ⟨S128x128, .f32⟩
  | .hbm, ⟨36, _⟩ => ⟨S1x128, .f32⟩
  | .hbm, ⟨37, _⟩ => ⟨S100000x128, .f32⟩
  | .hbm, ⟨38, _⟩ => ⟨S_, .i32⟩
  | .hbm, ⟨39, _⟩ => ⟨S1600000, .i32⟩
  | .hbm, ⟨40, _⟩ => ⟨S1600000, .i1⟩
  | .hbm, ⟨41, _⟩ => ⟨S_, .i32⟩
  | .hbm, ⟨42, _⟩ => ⟨S1600000, .i32⟩
  | .hbm, ⟨43, _⟩ => ⟨S1600000, .i32⟩
  | .hbm, ⟨44, _⟩ => ⟨S1600000, .i32⟩
  | .hbm, ⟨45, _⟩ => ⟨S1600000x1, .i32⟩
  | .hbm, ⟨46, _⟩ => ⟨S1600000x128, .f32⟩
  | .hbm, ⟨47, _⟩ => ⟨S_, .f32⟩
  | .hbm, ⟨48, _⟩ => ⟨S100000x128, .f32⟩
  | .hbm, ⟨49, _⟩ => ⟨S1600000x1, .i32⟩
  | .hbm, ⟨50, _⟩ => ⟨S100000x128, .f32⟩
  | .hbm, ⟨51, _⟩ => ⟨S128x128, .f32⟩
  | .hbm, ⟨52, _⟩ => ⟨S1x128, .f32⟩
  | .hbm, ⟨53, _⟩ => ⟨S100000x128, .f32⟩
  | .hbm, ⟨54, _⟩ => ⟨S_, .i32⟩
  | .hbm, ⟨55, _⟩ => ⟨S1600000, .i32⟩
  | .hbm, ⟨56, _⟩ => ⟨S1600000, .i1⟩
  | .hbm, ⟨57, _⟩ => ⟨S_, .i32⟩
  | .hbm, ⟨58, _⟩ => ⟨S1600000, .i32⟩
  | .hbm, ⟨59, _⟩ => ⟨S1600000, .i32⟩
  | .hbm, ⟨60, _⟩ => ⟨S1600000, .i32⟩
  | .hbm, ⟨61, _⟩ => ⟨S1600000x1, .i32⟩
  | .hbm, ⟨62, _⟩ => ⟨S1600000x128, .f32⟩
  | .hbm, ⟨63, _⟩ => ⟨S_, .f32⟩
  | .hbm, ⟨64, _⟩ => ⟨S100000x128, .f32⟩
  | .hbm, ⟨65, _⟩ => ⟨S1600000x1, .i32⟩
  | .hbm, ⟨66, _⟩ => ⟨S100000x128, .f32⟩
  | .hbm, ⟨67, _⟩ => ⟨S128x64, .f32⟩
  | .hbm, ⟨68, _⟩ => ⟨S1x64, .f32⟩
  | .hbm, ⟨69, _⟩ => ⟨S100000x64, .f32⟩
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S4000x1, .f32⟩
  | .local _ .vmem, ⟨5, _⟩ => ⟨S4000x1, .f32⟩
  | .local _ .vmem, ⟨6, _⟩ => ⟨S128x128, .f32⟩
  | .local _ .vmem, ⟨7, _⟩ => ⟨S1x128, .f32⟩
  | .local _ .vmem, ⟨8, _⟩ => ⟨S4000x128, .f32⟩
  | .local _ .vmem, ⟨9, _⟩ => ⟨S4000x128, .f32⟩
  | .local _ .vmem, ⟨10, _⟩ => ⟨S4000x128, .f32⟩
  | .local _ .vmem, ⟨11, _⟩ => ⟨S4000x128, .f32⟩
  | .local _ .vmem, ⟨12, _⟩ => ⟨S4000x128, .f32⟩
  | .local _ .vmem, ⟨13, _⟩ => ⟨S4000x128, .f32⟩
  | .local _ .vmem, ⟨14, _⟩ => ⟨S4000x1, .f32⟩
  | .local _ .vmem, ⟨15, _⟩ => ⟨S4000x1, .f32⟩
  | .local _ .vmem, ⟨16, _⟩ => ⟨S128x128, .f32⟩
  | .local _ .vmem, ⟨17, _⟩ => ⟨S1x128, .f32⟩
  | .local _ .vmem, ⟨18, _⟩ => ⟨S4000x128, .f32⟩
  | .local _ .vmem, ⟨19, _⟩ => ⟨S4000x128, .f32⟩
  | .local _ .vmem, ⟨20, _⟩ => ⟨S4000x128, .f32⟩
  | .local _ .vmem, ⟨21, _⟩ => ⟨S4000x128, .f32⟩
  | .local _ .vmem, ⟨22, _⟩ => ⟨S4000x128, .f32⟩
  | .local _ .vmem, ⟨23, _⟩ => ⟨S4000x128, .f32⟩
  | .local _ .vmem, ⟨24, _⟩ => ⟨S4000x1, .f32⟩
  | .local _ .vmem, ⟨25, _⟩ => ⟨S4000x1, .f32⟩
  | .local _ .vmem, ⟨26, _⟩ => ⟨S128x64, .f32⟩
  | .local _ .vmem, ⟨27, _⟩ => ⟨S1x64, .f32⟩
  | .local _ .vmem, ⟨28, _⟩ => ⟨S4000x64, .f32⟩
  | .local _ .vmem, ⟨29, _⟩ => ⟨S4000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_cst_2 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_c : Ref sig .tc := ⟨.hbm, 22, rfl⟩
abbrev main_v9 : Ref sig .tc := ⟨.hbm, 23, rfl⟩
abbrev main_v10 : Ref sig .tc := ⟨.hbm, 24, rfl⟩
abbrev main_c_3 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_4 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_5 : Ref sig .tc := ⟨.hbm, 38, rfl⟩
abbrev main_v22 : Ref sig .tc := ⟨.hbm, 39, rfl⟩
abbrev main_v23 : Ref sig .tc := ⟨.hbm, 40, rfl⟩
abbrev main_c_6 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_7 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_c_8 : Ref sig .tc := ⟨.hbm, 54, rfl⟩
abbrev main_v35 : Ref sig .tc := ⟨.hbm, 55, rfl⟩
abbrev main_v36 : Ref sig .tc := ⟨.hbm, 56, rfl⟩
abbrev main_c_9 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_10 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg5_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg2_1 : Ref sig .tc := ⟨.vmem, 25, rfl⟩
abbrev cc2_stg3_0 : Ref sig .tc := ⟨.vmem, 26, rfl⟩
abbrev cc2_stg4_0 : Ref sig .tc := ⟨.vmem, 27, rfl⟩
abbrev cc2_stg5_0 : Ref sig .tc := ⟨.vmem, 28, rfl⟩
abbrev cc2_stg5_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem4_0 : DmaSem sig := 17
abbrev cc1_sem5_0 : DmaSem sig := 18
abbrev cc1_sem5_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem2_1 : DmaSem sig := 25
abbrev cc2_sem3_0 : DmaSem sig := 26
abbrev cc2_sem4_0 : DmaSem sig := 27
abbrev cc2_sem5_0 : DmaSem sig := 28
abbrev cc2_sem5_1 : DmaSem sig := 29

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S4000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S4000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S4000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S_S100000x128 : S_.BroadcastsInDim S100000x128 (![] : Fin 0 → Fin S100000x128.rank)
  transposes_S128x128_S128x128_1_0 : S128x128.Transposes [1, 0] S128x128
  bcast_S128_S1x128_1 : S128.BroadcastsInDim S1x128 (![1] : Fin 1 → Fin S1x128.rank)
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x128 : S4000x1.Broadcasts S4000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  transposes_S64x128_S128x64_1_0 : S64x128.Transposes [1, 0] S128x64
  bcast_S64_S1x64_1 : S64.BroadcastsInDim S1x64 (![1] : Fin 1 → Fin S1x64.rank)
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4000x64 : S1x64.Broadcasts S4000x64
  inb_S4000x64_S4000x64_0_0 : ∀ a, (![0, 0] : Fin 2 → Nat) a + S4000x64.size a ≤ S4000x64.size a
  h_S4000x64 : 0 < S4000x64.numel
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S4000x128_S128x128_S4000x128_1_0_0_1_n_n_wf : DotDims.WF S4000x128 S128x128 S4000x128 [1] [0] [0] [1] [] []
  dot_S4000x128_S128x64_S4000x64_1_0_0_1_n_n_wf : DotDims.WF S4000x128 S128x64 S4000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S100000x128.size a
  hwx0_1 : ∀ i : grid0.Coords, EltTy.bits .f32 = 32 ∨ (Rect.block (s := S100000x128) S4000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x1.size a ≤ S100000x1.size a
  hwx0_2 : ∀ i : grid0.Coords, EltTy.bits .f32 = 32 ∨ (Rect.block (s := S100000x1) S4000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4000x128.size a ≤ S100000x128.size a
  hwx0_5 : ∀ i : grid0.Coords, EltTy.bits .f32 = 32 ∨ (Rect.block (s := S100000x128) S4000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S100000x128.size a
  hwx1_1 : ∀ i : grid1.Coords, EltTy.bits .f32 = 32 ∨ (Rect.block (s := S100000x128) S4000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x1.size a ≤ S100000x1.size a
  hwx1_2 : ∀ i : grid1.Coords, EltTy.bits .f32 = 32 ∨ (Rect.block (s := S100000x1) S4000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4000x128.size a ≤ S100000x128.size a
  hwx1_5 : ∀ i : grid1.Coords, EltTy.bits .f32 = 32 ∨ (Rect.block (s := S100000x128) S4000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S100000x128.size a
  hwx2_0 : ∀ i : grid2.Coords, EltTy.bits .f32 = 32 ∨ (Rect.block (s := S100000x128) S4000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x128.size a ≤ S100000x128.size a
  hwx2_1 : ∀ i : grid2.Coords, EltTy.bits .f32 = 32 ∨ (Rect.block (s := S100000x128) S4000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x1.size a ≤ S100000x1.size a
  hwx2_2 : ∀ i : grid2.Coords, EltTy.bits .f32 = 32 ∨ (Rect.block (s := S100000x1) S4000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x64.size a ≤ S128x64.size a
  hwx2_3 : ∀ i : grid2.Coords, EltTy.bits .f32 = 32 ∨ (Rect.block (s := S128x64) S128x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S4000x64.size a ≤ S100000x64.size a
  hwx2_5 : ∀ i : grid2.Coords, EltTy.bits .f32 = 32 ∨ (Rect.block (s := S100000x64) S4000x64.size (cc2_transform_5 i) (hinb2_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def dot_S4000x128_S128x64_S4000x64_1_0_0_1_n_n : DotDims S4000x128 S128x64 S4000x64 where
  lhsContracting := [1]
  rhsContracting := [0]
  lhsNonContracting := [0]
  rhsNonContracting := [1]
  lhsBatch := []
  rhsBatch := []
  wf := dot_S4000x128_S128x64_S4000x64_1_0_0_1_n_n_wf

abbrev win0_0 : Pipeline.Window sig grid0 :=
  Pipeline.Window.ofSpec (Memref.whole main_v18) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S4000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v19) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v20) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v21) S4000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v31) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v21) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v8) S4000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v32) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v33) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v34) S4000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v44) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v34) S4000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v8) S4000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v45) S128x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v46) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v47) S4000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩
abbrev S128x64 : Shape := ⟨2, ![128, 64]⟩
abbrev S100000x64 : Shape := ⟨2, ![100000, 64]⟩
abbrev S1x64 : Shape := ⟨2, ![1, 64]⟩

abbrev nBuf : Space → Nat
  | .hbm => 93
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S64x128, .f32⟩
  | .hbm, ⟨8, _⟩ => ⟨S64, .f32⟩
  | .hbm, ⟨9, _⟩ => ⟨S_, .f32⟩
  | .hbm, ⟨10, _⟩ => ⟨S1600000, .f32⟩
  | .hbm, ⟨11, _⟩ => ⟨S_, .f32⟩
  | .hbm, ⟨12, _⟩ => ⟨S100000, .f32⟩
  | .hbm, ⟨13, _⟩ => ⟨S1600000x1, .i32⟩
  | .hbm, ⟨14, _⟩ => ⟨S100000, .f32⟩
  | .hbm, ⟨15, _⟩ => ⟨S_, .f32⟩
  | .hbm, ⟨16, _⟩ => ⟨S100000, .f32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .i32⟩
  | .hbm, ⟨22, _⟩ => ⟨S1600000, .i32⟩
  | .hbm, ⟨23, _⟩ => ⟨S1600000, .i1⟩
  | .hbm, ⟨24, _⟩ => ⟨S_, .i32⟩
  | .hbm, ⟨25, _⟩ => ⟨S1600000, .i32⟩
  | .hbm, ⟨26, _⟩ => ⟨S1600000, .i32⟩
  | .hbm, ⟨27, _⟩ => ⟨S1600000, .i32⟩
  | .hbm, ⟨28, _⟩ => ⟨S1600000x1, .i32⟩
  | .hbm, ⟨29, _⟩ => ⟨S1600000x128, .f32⟩
  | .hbm, ⟨30, _⟩ => ⟨S_, .f32⟩
  | .hbm, ⟨31, _⟩ => ⟨S100000x128, .f32⟩
  | .hbm, ⟨32, _⟩ => ⟨S1600000x1, .i32⟩
  | .hbm, ⟨33, _⟩ => ⟨S100000x128, .f32⟩
  | .hbm, ⟨34, _⟩ => ⟨S100000x128, .f32⟩
  | .hbm, ⟨35, _⟩ => ⟨S100000x1, .f32⟩
  | .hbm, ⟨36, _⟩ => ⟨S100000x128, .f32⟩
  | .hbm, ⟨37, _⟩ => ⟨S100000x128, .f32⟩
  | .hbm, ⟨38, _⟩ => ⟨S128x128, .f32⟩
  | .hbm, ⟨39, _⟩ => ⟨S100000x128, .f32⟩
  | .hbm, ⟨40, _⟩ => ⟨S1x128, .f32⟩
  | .hbm, ⟨41, _⟩ => ⟨S100000x128, .f32⟩
  | .hbm, ⟨42, _⟩ => ⟨S100000x128, .f32⟩
  | .hbm, ⟨43, _⟩ => ⟨S_, .f32⟩
  | .hbm, ⟨44, _⟩ => ⟨S100000x128, .f32⟩
  | .hbm, ⟨45, _⟩ => ⟨S100000x128, .f32⟩
  | .hbm, ⟨46, _⟩ => ⟨S_, .i32⟩
  | .hbm, ⟨47, _⟩ => ⟨S1600000, .i32⟩
  | .hbm, ⟨48, _⟩ => ⟨S1600000, .i1⟩
  | .hbm, ⟨49, _⟩ => ⟨S_, .i32⟩
  | .hbm, ⟨50, _⟩ => ⟨S1600000, .i32⟩
  | .hbm, ⟨51, _⟩ => ⟨S1600000, .i32⟩
  | .hbm, ⟨52, _⟩ => ⟨S1600000, .i32⟩
  | .hbm, ⟨53, _⟩ => ⟨S1600000x1, .i32⟩
  | .hbm, ⟨54, _⟩ => ⟨S1600000x128, .f32⟩
  | .hbm, ⟨55, _⟩ => ⟨S_, .f32⟩
  | .hbm, ⟨56, _⟩ => ⟨S100000x128, .f32⟩
  | .hbm, ⟨57, _⟩ => ⟨S1600000x1, .i32⟩
  | .hbm, ⟨58, _⟩ => ⟨S100000x128, .f32⟩
  | .hbm, ⟨59, _⟩ => ⟨S100000x128, .f32⟩
  | .hbm, ⟨60, _⟩ => ⟨S100000x1, .f32⟩
  | .hbm, ⟨61, _⟩ => ⟨S100000x128, .f32⟩
  | .hbm, ⟨62, _⟩ => ⟨S100000x128, .f32⟩
  | .hbm, ⟨63, _⟩ => ⟨S128x128, .f32⟩
  | .hbm, ⟨64, _⟩ => ⟨S100000x128, .f32⟩
  | .hbm, ⟨65, _⟩ => ⟨S1x128, .f32⟩
  | .hbm, ⟨66, _⟩ => ⟨S100000x128, .f32⟩
  | .hbm, ⟨67, _⟩ => ⟨S100000x128, .f32⟩
  | .hbm, ⟨68, _⟩ => ⟨S_, .f32⟩
  | .hbm, ⟨69, _⟩ => ⟨S100000x128, .f32⟩
  | .hbm, ⟨70, _⟩ => ⟨S100000x128, .f32⟩
  | .hbm, ⟨71, _⟩ => ⟨S_, .i32⟩
  | .hbm, ⟨72, _⟩ => ⟨S1600000, .i32⟩
  | .hbm, ⟨73, _⟩ => ⟨S1600000, .i1⟩
  | .hbm, ⟨74, _⟩ => ⟨S_, .i32⟩
  | .hbm, ⟨75, _⟩ => ⟨S1600000, .i32⟩
  | .hbm, ⟨76, _⟩ => ⟨S1600000, .i32⟩
  | .hbm, ⟨77, _⟩ => ⟨S1600000, .i32⟩
  | .hbm, ⟨78, _⟩ => ⟨S1600000x1, .i32⟩
  | .hbm, ⟨79, _⟩ => ⟨S1600000x128, .f32⟩
  | .hbm, ⟨80, _⟩ => ⟨S_, .f32⟩
  | .hbm, ⟨81, _⟩ => ⟨S100000x128, .f32⟩
  | .hbm, ⟨82, _⟩ => ⟨S1600000x1, .i32⟩
  | .hbm, ⟨83, _⟩ => ⟨S100000x128, .f32⟩
  | .hbm, ⟨84, _⟩ => ⟨S100000x128, .f32⟩
  | .hbm, ⟨85, _⟩ => ⟨S100000x1, .f32⟩
  | .hbm, ⟨86, _⟩ => ⟨S100000x128, .f32⟩
  | .hbm, ⟨87, _⟩ => ⟨S100000x128, .f32⟩
  | .hbm, ⟨88, _⟩ => ⟨S128x64, .f32⟩
  | .hbm, ⟨89, _⟩ => ⟨S100000x64, .f32⟩
  | .hbm, ⟨90, _⟩ => ⟨S1x64, .f32⟩
  | .hbm, ⟨91, _⟩ => ⟨S100000x64, .f32⟩
  | .hbm, ⟨92, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_cst_2 : Ref sig .tc := ⟨.hbm, 18, rfl⟩
abbrev main_v6 : Ref sig .tc := ⟨.hbm, 19, rfl⟩
abbrev main_v7 : Ref sig .tc := ⟨.hbm, 20, rfl⟩
abbrev main_c : Ref sig .tc := ⟨.hbm, 21, rfl⟩
abbrev main_v8 : Ref sig .tc := ⟨.hbm, 22, rfl⟩
abbrev main_v9 : Ref sig .tc := ⟨.hbm, 23, rfl⟩
abbrev main_c_3 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_4 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_call0_cst : Ref sig .tc := ⟨.hbm, 43, rfl⟩
abbrev main_call0_v0 : Ref sig .tc := ⟨.hbm, 44, rfl⟩
abbrev main_v27 : Ref sig .tc := ⟨.hbm, 45, rfl⟩
abbrev main_c_5 : Ref sig .tc := ⟨.hbm, 46, rfl⟩
abbrev main_v28 : Ref sig .tc := ⟨.hbm, 47, rfl⟩
abbrev main_v29 : Ref sig .tc := ⟨.hbm, 48, rfl⟩
abbrev main_c_6 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst_7 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_c_8 : Ref sig .tc := ⟨.hbm, 71, rfl⟩
abbrev main_v48 : Ref sig .tc := ⟨.hbm, 72, rfl⟩
abbrev main_v49 : Ref sig .tc := ⟨.hbm, 73, rfl⟩
abbrev main_c_9 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_cst_10 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  transposes_S64x128_S128x64_1_0 : S64x128.Transposes [1, 0] S128x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.KernelRun.lean ====
/-
  The run of the three-layer program with its result named.

  The program is three pipelined regions among stretches of host operations. The generated frame module states the
  buffer contents at every boundary between them as a fold from the launch memory (`W0` … `W6`) and proves that every
  weakly fair execution ends with every unscoped buffer at the last boundary's contents `W6`. Its own conclusion keeps
  only the argument arrays; here the same launch is read at the result buffer as well: the result array ends at
  `W6` of its buffer, the arguments as launched.
-/
import proofs.«150860_j5944234737795_1_alg».proof.Proof.Gen.KernelIdeal.Frame

set_option maxRecDepth 16384

noncomputable section

namespace Cert.KernelIdeal.Out

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result array at the last
    boundary's contents of its buffer and every argument array as launched. -/
theorem run : θ_run defs (onTc (τ := τ) (main (F := F))) ⟨m, fun _ => 0, ρ⟩ (fun r => ∀ c : Dev nD,
      r.2.mem ((c.tc : Thread nD τ).loc main_v47) = W6 m ρ c (Proc.devRef .tc main_v47)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v47 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c)⟩)

end Cert.KernelIdeal.Out

end
-- ==== Proof.LibMatmulAt.lean ====
/-
  A matrix product with one contracted axis, read at one entry.

  For dimension numbers that contract the left operand's second axis with the right operand's first — the left
  operand [a, n], the right operand [n, b], the result [a, b], no batch axes — the entry (p, q) of the product is
  the sum over k of left (p, k) times right (k, q). The dimension numbers enter only through four facts about where
  the two operand indices sit (the left one reads the result's row and the contraction position, the right one the
  contraction position and the result's column); a caller proves those four facts for its own record, each by unfolding
  the record's two membership tests.

  `contr_sum_ix2`      the contraction's sum re-indexed by the one contracted coordinate;
  `matmul_zero_ix2`    a `tpu.matmul` into the zero accumulator at the ideal instance;
  `dotGeneral_ix2`     the host's `dot_general` at the ideal instance.
-/
import Idealize.ShloMosaic.PureOps.Ideal.Laws
import Idealize.ShloMosaic.Lib.ValueIdx

noncomputable section

open scoped BigOperators

namespace Idealize.ShloMosaic.MatmulAt

open Idealize.ShloMosaic Idealize.ShloMosaic.ValueIdx

variable {a n b : ℕ}

/-- The sum over the contraction positions of a one-axis contraction is the sum over the contracted coordinate
    `k : Fin n`, the left operand read at `(p, k)` and the right one at `(k, q)`. -/
theorem contr_sum_ix2 (D : DotDims ⟨2, ![a, n]⟩ ⟨2, ![n, b]⟩ ⟨2, ![a, b]⟩) (hr : D.contr.rank = 1)
    (hs : D.contr.size ⟨0, by omega⟩ = n)
    (hl0 : ∀ i q, (D.lhsIdx i q (0 : Fin 2)).val = (i (0 : Fin 2)).val)
    (hl1 : ∀ i q, (D.lhsIdx i q (1 : Fin 2)).val = (q ⟨0, by omega⟩).val)
    (hr0 : ∀ i q, (D.rhsIdx i q (0 : Fin 2)).val = (q ⟨0, by omega⟩).val)
    (hr1 : ∀ i q, (D.rhsIdx i q (1 : Fin 2)).val = (i (1 : Fin 2)).val)
    (l : (⟨2, ![a, n]⟩ : Shape).Idx → EReal) (r : (⟨2, ![n, b]⟩ : Shape).Idx → EReal) (p : Fin a) (q : Fin b) :
    ∑ k : D.contr.Idx, l (D.lhsIdx (ix2 p q) k) * r (D.rhsIdx (ix2 p q) k) = ∑ k : Fin n, l (ix2 p k) * r (ix2 k q) := by
  rw [← Equiv.sum_comp (contrEquiv1 D n hr hs).symm]
  refine Finset.sum_congr rfl fun k _ => ?_
  have hk := contrEquiv1_symm_val D n hr hs k
  have el : D.lhsIdx (ix2 p q) ((contrEquiv1 D n hr hs).symm k) = ix2 p k := funext fun ax => Fin.ext (by
    match ax with
    | ⟨0, _⟩ => exact hl0 _ _
    | ⟨1, _⟩ => exact (hl1 _ _).trans hk)
  have er : D.rhsIdx (ix2 p q) ((contrEquiv1 D n hr hs).symm k) = ix2 k q := funext fun ax => Fin.ext (by
    match ax with
    | ⟨0, _⟩ => exact (hr0 _ _).trans hk
    | ⟨1, _⟩ => exact hr1 _ _)
  rw [el, er]

/-- A `tpu.matmul` of an [a, n] by an [n, b] operand into the zero accumulator, at the ideal instance, read at
    `(p, q)`: the sum over `k` of left `(p, k)` times right `(k, q)`. -/
theorem matmul_zero_ix2 {φ₁ φ₂ : FTy} (D : DotDims ⟨2, ![a, n]⟩ ⟨2, ![n, b]⟩ ⟨2, ![a, b]⟩) (hr : D.contr.rank = 1)
    (hs : D.contr.size ⟨0, by omega⟩ = n)
    (hl0 : ∀ i q, (D.lhsIdx i q (0 : Fin 2)).val = (i (0 : Fin 2)).val)
    (hl1 : ∀ i q, (D.lhsIdx i q (1 : Fin 2)).val = (q ⟨0, by omega⟩).val)
    (hr0 : ∀ i q, (D.rhsIdx i q (0 : Fin 2)).val = (q ⟨0, by omega⟩).val)
    (hr1 : ∀ i q, (D.rhsIdx i q (1 : Fin 2)).val = (i (1 : Fin 2)).val)
    (prec : Option ContractPrecision) (l : FVec Ideal ⟨2, ![a, n]⟩ φ₁) (r : FVec Ideal ⟨2, ![n, b]⟩ φ₂)
    (p : Fin a) (q : Fin b) :
    matmul D prec l r (constant ⟨2, ![a, b]⟩ .f32 0x00000000#32) (ix2 p q) = ∑ k : Fin n, l (ix2 p k) * r (ix2 k q) :=
  (Ideal.matmul_constant_zero_apply D prec l r (ix2 p q)).trans (contr_sum_ix2 D hr hs hl0 hl1 hr0 hr1 l r p q)

/-- The host's `dot_general` of an [a, n] by an [n, b] operand, at the ideal instance, read at `(p, q)`: the same sum. -/
theorem dotGeneral_ix2 {φ₁ φ₂ : FTy} (D : DotDims ⟨2, ![a, n]⟩ ⟨2, ![n, b]⟩ ⟨2, ![a, b]⟩) (hr : D.contr.rank = 1)
    (hs : D.contr.size ⟨0, by omega⟩ = n)
    (hl0 : ∀ i q, (D.lhsIdx i q (0 : Fin 2)).val = (i (0 : Fin 2)).val)
    (hl1 : ∀ i q, (D.lhsIdx i q (1 : Fin 2)).val = (q ⟨0, by omega⟩).val)
    (hr0 : ∀ i q, (D.rhsIdx i q (0 : Fin 2)).val = (q ⟨0, by omega⟩).val)
    (hr1 : ∀ i q, (D.rhsIdx i q (1 : Fin 2)).val = (i (1 : Fin 2)).val)
    (prec : Option ContractPrecision) (l : FVec Ideal ⟨2, ![a, n]⟩ φ₁) (r : FVec Ideal ⟨2, ![n, b]⟩ φ₂)
    (p : Fin a) (q : Fin b) :
    Host.dotGeneral D prec l r (ix2 p q) = ∑ k : Fin n, l (ix2 p k) * r (ix2 k q) :=
  (Ideal.dotGeneral_apply D prec .single l r (ix2 p q)).trans (contr_sum_ix2 D hr hs hl0 hl1 hr0 hr1 l r p q)

end Idealize.ShloMosaic.MatmulAt

end
-- ==== Proof.LibColInDim.lean ====
/-
  Two host broadcasts around a unit column, read at an entry: a vector stood up as one column
  (`broadcast_in_dim` with dims [0], [a] to [a, 1]) and one column stretched over b columns (dims [0, 1], [a, 1] to [a, b]).
-/
import Idealize.ShloMosaic.Lib.Pipeline.Value
import Idealize.ShloMosaic.Lib.ValueIdx

namespace Cert.LibColInDim

open Idealize.ShloMosaic Idealize.ShloMosaic.ValueIdx

variable {α : Type}

/-- An [a] array broadcast to [a, 1] along dims [0] reads, at (p, u), the operand at p. -/
theorem bcast_a_a1_apply {a : ℕ} (x : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h x (ix2 p u) = x (ix1 p) := by
  refine broadcastInDim_apply ![0] h x (ix2 p u) (ix1 p) fun ax => ?_
  match ax with
  | ⟨0, _⟩ =>
    show p.val = if a = 1 then 0 else p.val
    split
    · have := p.isLt; omega
    · rfl

/-- An [a, 1] array broadcast to [a, b] along dims [0, 1] reads, at (p, q), the operand's one column at row p. -/
theorem bcast_a1_ab_apply {a b : ℕ} (x : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h x (ix2 p q) = x (ix2 p (0 : Fin 1)) := by
  refine broadcastInDim_apply ![0, 1] h x (ix2 p q) (ix2 p (0 : Fin 1)) fun ax => ?_
  match ax with
  | ⟨0, _⟩ =>
    show p.val = if a = 1 then 0 else p.val
    split
    · have := p.isLt; omega
    · rfl
  | ⟨1, _⟩ => rfl

end Cert.LibColInDim
-- ==== Proof.LibRowInDim.lean ====
/-
  Two host broadcasts around a unit row, read at an entry: a vector laid down as one row
  (`broadcast_in_dim` with dims [1], [b] to [1, b]) and one row stretched over a rows (dims [0, 1], [1, b] to [a, b]).
-/
import Idealize.ShloMosaic.Lib.Pipeline.Value
import Idealize.ShloMosaic.Lib.ValueIdx

namespace Cert.LibRowInDim

open Idealize.ShloMosaic Idealize.ShloMosaic.ValueIdx

variable {α : Type}

/-- A [b] array broadcast to [1, b] along dims [1] reads, at (u, k), the operand at k. -/
theorem bcast_b_1b_apply {b : ℕ} (x : (⟨1, ![b]⟩ : Shape).Idx → α)
    (h : (⟨1, ![b]⟩ : Shape).BroadcastsInDim ⟨2, ![1, b]⟩ ![1]) (u : Fin 1) (k : Fin b) :
    broadcastInDim ⟨2, ![1, b]⟩ ![1] h x (ix2 u k) = x (ix1 k) := by
  refine broadcastInDim_apply ![1] h x (ix2 u k) (ix1 k) fun ax => ?_
  match ax with
  | ⟨0, _⟩ =>
    show k.val = if b = 1 then 0 else k.val
    split
    · have := k.isLt; omega
    · rfl

/-- A [1, b] array broadcast to [a, b] along dims [0, 1] reads, at (p, k), the operand's one row at column k. -/
theorem bcast_1b_ab_apply {a b : ℕ} (x : (⟨2, ![1, b]⟩ : Shape).Idx → α)
    (h : (⟨2, ![1, b]⟩ : Shape).BroadcastsInDim ⟨2, ![a, b]⟩ ![0, 1]) (p : Fin a) (k : Fin b) :
    broadcastInDim ⟨2, ![a, b]⟩ ![0, 1] h x (ix2 p k) = x (ix2 (0 : Fin 1) k) := by
  refine broadcastInDim_apply ![0, 1] h x (ix2 p k) (ix2 (0 : Fin 1) k) fun ax => ?_
  match ax with
  | ⟨0, _⟩ => rfl
  | ⟨1, _⟩ =>
    show k.val = if b = 1 then 0 else k.val
    split
    · have := k.isLt; omega
    · rfl

end Cert.LibRowInDim
-- ==== Proof.Dense.lean ====
/-
  One layer's dense stage, as one function of whole arrays, and its value at an entry.

  A layer of the network takes the aggregated neighbour features `m` and the node's own features `h` (both
  [a, n]), a column `s` of per-node scales ([a, 1]: one over the in-degree plus one), a weight matrix `w` ([n, b])
  and a bias row `β` ([1, b]) and returns

      out (p, q) = Σ_k ((m (p, k) + h (p, k)) · s (p, 0)) · w (k, q) + β (0, q),

  followed, in the hidden layers, by the maximum with zero. `lin` and `relu` spell that with the host's operations
  (an elementwise sum and product, two broadcasts, one matrix product, a maximum against a splat of the zero word), the
  dimension records left as parameters; `lin_apply` and `relu_apply` read them at an entry on the extended reals.
  No law beyond the definitions is used: nothing here needs the entries to be finite.
-/
import Idealize.ShloMosaic.PureOps.Ideal.Laws
import Idealize.ShloMosaic.Lib.ValueIdx
import Idealize.ShloMosaic.Lib.Pipeline.Value
import proofs.«150860_j5944234737795_1_alg».proof.Proof.LibMatmulAt
import proofs.«150860_j5944234737795_1_alg».proof.Proof.LibColInDim
import proofs.«150860_j5944234737795_1_alg».proof.Proof.LibRowInDim

noncomputable section

open scoped BigOperators

namespace Cert.Sage

open Idealize.ShloMosaic Idealize.ShloMosaic.ValueIdx

variable {F : FTy → Type} [FloatOps F]
variable {a n b : ℕ}

/-- The linear part of a layer: `((m + h) · s) w + β`, the scale column stretched over the `n` features and the bias
    row over the `a` nodes. -/
def lin (D : DotDims ⟨2, ![a, n]⟩ ⟨2, ![n, b]⟩ ⟨2, ![a, b]⟩)
    (hs : (⟨2, ![a, 1]⟩ : Shape).BroadcastsInDim ⟨2, ![a, n]⟩ ![0, 1])
    (hβ : (⟨2, ![1, b]⟩ : Shape).BroadcastsInDim ⟨2, ![a, b]⟩ ![0, 1])
    (m h : FVec F ⟨2, ![a, n]⟩ .f32) (s : FVec F ⟨2, ![a, 1]⟩ .f32) (w : FVec F ⟨2, ![n, b]⟩ .f32)
    (β : FVec F ⟨2, ![1, b]⟩ .f32) : FVec F ⟨2, ![a, b]⟩ .f32 :=
  addf (Host.dotGeneral D none (mulf (addf m h) (broadcastInDim ⟨2, ![a, n]⟩ ![0, 1] hs s)) w)
    (broadcastInDim ⟨2, ![a, b]⟩ ![0, 1] hβ β)

/-- The activation of the hidden layers: the maximum with a splat of the zero word. -/
def relu (hz : (⟨0, ![]⟩ : Shape).BroadcastsInDim ⟨2, ![a, b]⟩ ![]) (x : FVec F ⟨2, ![a, b]⟩ .f32) :
    FVec F ⟨2, ![a, b]⟩ .f32 :=
  maximumf x (broadcastInDim ⟨2, ![a, b]⟩ ![] hz (constant ⟨0, ![]⟩ .f32 0x00000000#32))

/-- The linear part at `(p, q)`, on the extended reals. The dimension record enters through where its two operand
    indices sit (the four facts a caller proves for its record). -/
theorem lin_apply (D : DotDims ⟨2, ![a, n]⟩ ⟨2, ![n, b]⟩ ⟨2, ![a, b]⟩) (hr : D.contr.rank = 1)
    (hn : D.contr.size ⟨0, by omega⟩ = n)
    (hl0 : ∀ i q, (D.lhsIdx i q (0 : Fin 2)).val = (i (0 : Fin 2)).val)
    (hl1 : ∀ i q, (D.lhsIdx i q (1 : Fin 2)).val = (q ⟨0, by omega⟩).val)
    (hr0 : ∀ i q, (D.rhsIdx i q (0 : Fin 2)).val = (q ⟨0, by omega⟩).val)
    (hr1 : ∀ i q, (D.rhsIdx i q (1 : Fin 2)).val = (i (1 : Fin 2)).val)
    (hs : (⟨2, ![a, 1]⟩ : Shape).BroadcastsInDim ⟨2, ![a, n]⟩ ![0, 1])
    (hβ : (⟨2, ![1, b]⟩ : Shape).BroadcastsInDim ⟨2, ![a, b]⟩ ![0, 1])
    (m h : FVec Ideal ⟨2, ![a, n]⟩ .f32) (s : FVec Ideal ⟨2, ![a, 1]⟩ .f32) (w : FVec Ideal ⟨2, ![n, b]⟩ .f32)
    (β : FVec Ideal ⟨2, ![1, b]⟩ .f32) (p : Fin a) (q : Fin b) :
    lin D hs hβ m h s w β (ix2 p q)
      = (∑ k : Fin n, ((m (ix2 p k) + h (ix2 p k)) * s (ix2 p (0 : Fin 1))) * w (ix2 k q)) + β (ix2 (0 : Fin 1) q) := by
  unfold lin
  rw [addf_apply, Idealize.ShloMosaic.MatmulAt.dotGeneral_ix2 D hr hn hl0 hl1 hr0 hr1,
    Cert.LibRowInDim.bcast_1b_ab_apply]
  refine congrArg (· + β (ix2 (0 : Fin 1) q)) (Finset.sum_congr rfl fun k _ => ?_)
  rw [mulf_apply, addf_apply, Cert.LibColInDim.bcast_a1_ab_apply]

/-- The activation at an entry: the maximum with what the zero word denotes. -/
theorem relu_apply (hz : (⟨0, ![]⟩ : Shape).BroadcastsInDim ⟨2, ![a, b]⟩ ![]) (x : FVec Ideal ⟨2, ![a, b]⟩ .f32)
    (i : (⟨2, ![a, b]⟩ : Shape).Idx) :
    relu hz x i = max (x i) (Ideal.ofBits .f32 0x00000000#32) := by
  unfold relu
  rw [maximumf_apply,
    broadcastInDim_apply ![] hz (constant (F := Ideal) ⟨0, ![]⟩ .f32 0x00000000#32) i (fun e => e.elim0) (fun e => e.elim0),
    constant_apply]

end Cert.Sage

end
-- ==== Proof.LibColBroadcast.lean ====
/-
  One column broadcast over many: the companion of the library's row form `broadcastTo_1b_ab_apply`.
-/
import Idealize.ShloMosaic.Lib.Pipeline.Value
import Idealize.ShloMosaic.Lib.ValueIdx

namespace Cert.LibColBroadcast

open Idealize.ShloMosaic Idealize.ShloMosaic.ValueIdx

variable {α : Type}

/-- An `[a, 1]` array broadcast to `[a, b]` reads, at `(p, c)`, the operand's one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColBroadcast
-- ==== Proof.Payload.lean ====
/-
  What each region's body stores, read at an entry of its block.

  The three bodies are one computation on a block of 4000 nodes: the sum of the aggregated and the node's own
  features, scaled by the node's column entry, rounded to the narrower format (the identity on the extended reals),
  multiplied into the (rounded) weights from a zero accumulator, the bias row added, and — in the two hidden
  layers — the maximum with zero taken. At entry (y, q) of the block that is

      Σ_k ((x0 (y, k) + x1 (y, k)) · x2 (y, 0)) · x3 (k, q) + x4 (0, q).
-/
import proofs.«150860_j5944234737795_1_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value
import proofs.«150860_j5944234737795_1_alg».proof.Proof.LibMatmulAt
import proofs.«150860_j5944234737795_1_alg».proof.Proof.LibColBroadcast

noncomputable section

open scoped BigOperators

namespace Cert.KernelIdeal.Body

open Cert.KernelIdeal Cert.KernelIdeal.Gen
open Idealize.ShloMosaic Idealize.ShloMosaic.ValueIdx

/-! ## Where the two product records read their operands -/

theorem lhs128_0 (i : S4000x128.Idx) (q : dot_S4000x128_S128x128_S4000x128_1_0_0_1_n_n.contr.Idx) :
    (dot_S4000x128_S128x128_S4000x128_1_0_0_1_n_n.lhsIdx i q (0 : Fin 2)).val = (i (0 : Fin 2)).val := by
  unfold DotDims.lhsIdx
  rw [dif_neg (show ¬(0 : Fin S4000x128.rank) ∈ dot_S4000x128_S128x128_S4000x128_1_0_0_1_n_n.lhsBatch by decide),
    dif_pos (show (0 : Fin S4000x128.rank) ∈ dot_S4000x128_S128x128_S4000x128_1_0_0_1_n_n.lhsNonContracting by decide)]
  rfl
theorem lhs128_1 (i : S4000x128.Idx) (q : dot_S4000x128_S128x128_S4000x128_1_0_0_1_n_n.contr.Idx) :
    (dot_S4000x128_S128x128_S4000x128_1_0_0_1_n_n.lhsIdx i q (1 : Fin 2)).val = (q ⟨0, by decide⟩).val :=
  dot_S4000x128_S128x128_S4000x128_1_0_0_1_n_n.lhsIdx_val_of_single rfl i q
theorem rhs128_0 (i : S4000x128.Idx) (q : dot_S4000x128_S128x128_S4000x128_1_0_0_1_n_n.contr.Idx) :
    (dot_S4000x128_S128x128_S4000x128_1_0_0_1_n_n.rhsIdx i q (0 : Fin 2)).val = (q ⟨0, by decide⟩).val :=
  dot_S4000x128_S128x128_S4000x128_1_0_0_1_n_n.rhsIdx_val_of_single rfl i q
theorem rhs128_1 (i : S4000x128.Idx) (q : dot_S4000x128_S128x128_S4000x128_1_0_0_1_n_n.contr.Idx) :
    (dot_S4000x128_S128x128_S4000x128_1_0_0_1_n_n.rhsIdx i q (1 : Fin 2)).val = (i (1 : Fin 2)).val := by
  unfold DotDims.rhsIdx
  rw [dif_neg (show ¬(1 : Fin S128x128.rank) ∈ dot_S4000x128_S128x128_S4000x128_1_0_0_1_n_n.rhsBatch by decide),
    dif_pos (show (1 : Fin S128x128.rank) ∈ dot_S4000x128_S128x128_S4000x128_1_0_0_1_n_n.rhsNonContracting by decide)]
  rfl

theorem lhs64_0 (i : S4000x64.Idx) (q : dot_S4000x128_S128x64_S4000x64_1_0_0_1_n_n.contr.Idx) :
    (dot_S4000x128_S128x64_S4000x64_1_0_0_1_n_n.lhsIdx i q (0 : Fin 2)).val = (i (0 : Fin 2)).val := by
  unfold DotDims.lhsIdx
  rw [dif_neg (show ¬(0 : Fin S4000x128.rank) ∈ dot_S4000x128_S128x64_S4000x64_1_0_0_1_n_n.lhsBatch by decide),
    dif_pos (show (0 : Fin S4000x128.rank) ∈ dot_S4000x128_S128x64_S4000x64_1_0_0_1_n_n.lhsNonContracting by decide)]
  rfl
theorem lhs64_1 (i : S4000x64.Idx) (q : dot_S4000x128_S128x64_S4000x64_1_0_0_1_n_n.contr.Idx) :
    (dot_S4000x128_S128x64_S4000x64_1_0_0_1_n_n.lhsIdx i q (1 : Fin 2)).val = (q ⟨0, by decide⟩).val :=
  dot_S4000x128_S128x64_S4000x64_1_0_0_1_n_n.lhsIdx_val_of_single rfl i q
theorem rhs64_0 (i : S4000x64.Idx) (q : dot_S4000x128_S128x64_S4000x64_1_0_0_1_n_n.contr.Idx) :
    (dot_S4000x128_S128x64_S4000x64_1_0_0_1_n_n.rhsIdx i q (0 : Fin 2)).val = (q ⟨0, by decide⟩).val :=
  dot_S4000x128_S128x64_S4000x64_1_0_0_1_n_n.rhsIdx_val_of_single rfl i q
theorem rhs64_1 (i : S4000x64.Idx) (q : dot_S4000x128_S128x64_S4000x64_1_0_0_1_n_n.contr.Idx) :
    (dot_S4000x128_S128x64_S4000x64_1_0_0_1_n_n.rhsIdx i q (1 : Fin 2)).val = (i (1 : Fin 2)).val := by
  unfold DotDims.rhsIdx
  rw [dif_neg (show ¬(1 : Fin S128x64.rank) ∈ dot_S4000x128_S128x64_S4000x64_1_0_0_1_n_n.rhsBatch by decide),
    dif_pos (show (1 : Fin S128x64.rank) ∈ dot_S4000x128_S128x64_S4000x64_1_0_0_1_n_n.rhsNonContracting by decide)]
  rfl

/-! ## The scaled sum a body feeds its product, and the product -/

/-- The left operand of a body's product at `(y, k)`: the two feature blocks summed and scaled by the node's entry
    of the scale column. -/
theorem scaled_apply (u v : FVec Ideal S4000x128 .f32) (s : FVec Ideal S4000x1 .f32) (y : Fin 4000) (k : Fin 128) :
    (truncf .bf16 (mulf (addf u v) (broadcastTo S4000x128 s broadcasts_S4000x1_S4000x128)) bitsLt_bf16_f32
        : FVec Ideal S4000x128 .bf16) (ix2 y k)
      = (u (ix2 y k) + v (ix2 y k)) * s (ix2 y (0 : Fin 1)) := by
  rw [truncf_apply, mulf_apply, addf_apply, Cert.LibColBroadcast.broadcastTo_a1_ab_apply]

/-- The hidden layers' product at `(y, q)`. -/
theorem prod128_apply (l : FVec Ideal S4000x128 .bf16) (w : FVec Ideal S128x128 .f32) (y : Fin 4000) (q : Fin 128) :
    matmul dot_S4000x128_S128x128_S4000x128_1_0_0_1_n_n none l (truncf .bf16 w bitsLt_bf16_f32 : FVec Ideal S128x128 .bf16)
        (constant S4000x128 .f32 0x00000000#32) (ix2 y q)
      = ∑ k : Fin 128, l (ix2 y k) * w (ix2 k q) :=
  Idealize.ShloMosaic.MatmulAt.matmul_zero_ix2 dot_S4000x128_S128x128_S4000x128_1_0_0_1_n_n rfl rfl
    lhs128_0 lhs128_1 rhs128_0 rhs128_1 none l _ y q

/-- The last layer's product at `(y, q)`. -/
theorem prod64_apply (l : FVec Ideal S4000x128 .bf16) (w : FVec Ideal S128x64 .f32) (y : Fin 4000) (q : Fin 64) :
    matmul dot_S4000x128_S128x64_S4000x64_1_0_0_1_n_n none l (truncf .bf16 w bitsLt_bf16_f32 : FVec Ideal S128x64 .bf16)
        (constant S4000x64 .f32 0x00000000#32) (ix2 y q)
      = ∑ k : Fin 128, l (ix2 y k) * w (ix2 k q) :=
  Idealize.ShloMosaic.MatmulAt.matmul_zero_ix2 dot_S4000x128_S128x64_S4000x64_1_0_0_1_n_n rfl rfl
    lhs64_0 lhs64_1 rhs64_0 rhs64_1 none l _ y q

/-! ## The three stored values -/

/-- The first layer's stored block at `(y, q)`. -/
theorem pay0_apply (x0 x1 : Vec Ideal S4000x128 .f32) (x2 : Vec Ideal S4000x1 .f32) (x3 : Vec Ideal S128x128 .f32)
    (x4 : Vec Ideal S1x128 .f32) (y : Fin 4000) (q : Fin 128) :
    k0_pay1 x0 x1 x2 x3 x4 (ix2 y q)
      = max ((∑ k : Fin 128, ((x0 (ix2 y k) + x1 (ix2 y k)) * x2 (ix2 y (0 : Fin 1))) * x3 (ix2 k q)) + x4 (ix2 (0 : Fin 1) q))
          (Ideal.ofBits .f32 0x00000000#32) := by
  unfold k0_pay1
  simp only [shapeCast_self]
  rw [maximumf_apply, addf_apply, prod128_apply, broadcastTo_1b_ab_apply]
  refine congrArg₂ max (congrArg (· + x4 (ix2 (0 : Fin 1) q)) (Finset.sum_congr rfl fun k _ => ?_)) rfl
  rw [scaled_apply]

/-- The second layer's stored block at `(y, q)`. -/
theorem pay1_apply (x0 x1 : Vec Ideal S4000x128 .f32) (x2 : Vec Ideal S4000x1 .f32) (x3 : Vec Ideal S128x128 .f32)
    (x4 : Vec Ideal S1x128 .f32) (y : Fin 4000) (q : Fin 128) :
    k1_pay1 x0 x1 x2 x3 x4 (ix2 y q)
      = max ((∑ k : Fin 128, ((x0 (ix2 y k) + x1 (ix2 y k)) * x2 (ix2 y (0 : Fin 1))) * x3 (ix2 k q)) + x4 (ix2 (0 : Fin 1) q))
          (Ideal.ofBits .f32 0x00000000#32) := by
  unfold k1_pay1
  simp only [shapeCast_self]
  rw [maximumf_apply, addf_apply, prod128_apply, broadcastTo_1b_ab_apply]
  refine congrArg₂ max (congrArg (· + x4 (ix2 (0 : Fin 1) q)) (Finset.sum_congr rfl fun k _ => ?_)) rfl
  rw [scaled_apply]

/-- The last layer's stored block at `(y, q)`: no activation. -/
theorem pay2_apply (x0 x1 : Vec Ideal S4000x128 .f32) (x2 : Vec Ideal S4000x1 .f32) (x3 : Vec Ideal S128x64 .f32)
    (x4 : Vec Ideal S1x64 .f32) (y : Fin 4000) (q : Fin 64) :
    k2_pay1 x0 x1 x2 x3 x4 (ix2 y q)
      = (∑ k : Fin 128, ((x0 (ix2 y k) + x1 (ix2 y k)) * x2 (ix2 y (0 : Fin 1))) * x3 (ix2 k q)) + x4 (ix2 (0 : Fin 1) q) := by
  unfold k2_pay1
  simp only [shapeCast_self]
  rw [addf_apply, prod64_apply, broadcastTo_1b_ab_apply]
  refine congrArg (· + x4 (ix2 (0 : Fin 1) q)) (Finset.sum_congr rfl fun k _ => ?_)
  rw [scaled_apply]

end Cert.KernelIdeal.Body

end
-- ==== Proof.Block.lean ====
/-
  A block's stored entry is the layer's dense stage at the block's row.

  A region works on 4000 nodes at a time: block row `y` is node `row y` of the whole arrays. When the loaded blocks
  are the whole arrays read at those rows (the features and the scale column), or the whole array itself (the weights,
  the bias row), the entry the body stores at `(y, q)` is the dense stage of the whole arrays at `(row y, q)`: both
  are the same sum over the 128 features.
-/
import proofs.«150860_j5944234737795_1_alg».proof.Proof.Dense
import proofs.«150860_j5944234737795_1_alg».proof.Proof.Payload

noncomputable section

open scoped BigOperators

namespace Cert.KernelIdeal.Body

open Cert.KernelIdeal Cert.KernelIdeal.Gen
open Idealize.ShloMosaic Idealize.ShloMosaic.ValueIdx

/-- Node `t · 4000 + y`: row `y` of the `t`-th block of 4000 among 100000 nodes. -/
def row (t : ℕ) (ht : t < 25) (y : Fin 4000) : Fin 100000 := ⟨t * 4000 + y.val, by have := y.isLt; omega⟩

/-- A hidden layer: the stored entry is the activated dense stage at the block's row. -/
theorem hidden_entry (D : DotDims ⟨2, ![100000, 128]⟩ ⟨2, ![128, 128]⟩ ⟨2, ![100000, 128]⟩) (hr : D.contr.rank = 1)
    (hn : D.contr.size ⟨0, by omega⟩ = 128)
    (hl0 : ∀ i q, (D.lhsIdx i q (0 : Fin 2)).val = (i (0 : Fin 2)).val)
    (hl1 : ∀ i q, (D.lhsIdx i q (1 : Fin 2)).val = (q ⟨0, by omega⟩).val)
    (hr0 : ∀ i q, (D.rhsIdx i q (0 : Fin 2)).val = (q ⟨0, by omega⟩).val)
    (hr1 : ∀ i q, (D.rhsIdx i q (1 : Fin 2)).val = (i (1 : Fin 2)).val)
    (hs : (⟨2, ![100000, 1]⟩ : Shape).BroadcastsInDim ⟨2, ![100000, 128]⟩ ![0, 1])
    (hβ : (⟨2, ![1, 128]⟩ : Shape).BroadcastsInDim ⟨2, ![100000, 128]⟩ ![0, 1])
    (hz : (⟨0, ![]⟩ : Shape).BroadcastsInDim ⟨2, ![100000, 128]⟩ ![])
    (x0 x1 : (⟨2, ![4000, 128]⟩ : Shape).Idx → EReal) (x2 : (⟨2, ![4000, 1]⟩ : Shape).Idx → EReal)
    (x3 : (⟨2, ![128, 128]⟩ : Shape).Idx → EReal) (x4 : (⟨2, ![1, 128]⟩ : Shape).Idx → EReal)
    (M H : FVec Ideal ⟨2, ![100000, 128]⟩ .f32) (S : FVec Ideal ⟨2, ![100000, 1]⟩ .f32)
    (W : FVec Ideal ⟨2, ![128, 128]⟩ .f32) (B : FVec Ideal ⟨2, ![1, 128]⟩ .f32)
    (ρ : Fin 4000 → Fin 100000)
    (e0 : ∀ y k, x0 (ix2 y k) = M (ix2 (ρ y) k)) (e1 : ∀ y k, x1 (ix2 y k) = H (ix2 (ρ y) k))
    (e2 : ∀ y, x2 (ix2 y (0 : Fin 1)) = S (ix2 (ρ y) (0 : Fin 1)))
    (e3 : ∀ k q, x3 (ix2 k q) = W (ix2 k q)) (e4 : ∀ q, x4 (ix2 (0 : Fin 1) q) = B (ix2 (0 : Fin 1) q))
    (y : Fin 4000) (q : Fin 128) :
    max ((∑ k : Fin 128, ((x0 (ix2 y k) + x1 (ix2 y k)) * x2 (ix2 y (0 : Fin 1))) * x3 (ix2 k q)) + x4 (ix2 (0 : Fin 1) q))
        (Ideal.ofBits .f32 0x00000000#32)
      = Cert.Sage.relu hz (Cert.Sage.lin D hs hβ M H S W B) (ix2 (ρ y) q) := by
  rw [Cert.Sage.relu_apply, Cert.Sage.lin_apply D hr hn hl0 hl1 hr0 hr1]
  simp only [e0, e1, e2, e3, e4]

/-- The last layer: the stored entry is the dense stage at the block's row. -/
theorem last_entry (D : DotDims ⟨2, ![100000, 128]⟩ ⟨2, ![128, 64]⟩ ⟨2, ![100000, 64]⟩) (hr : D.contr.rank = 1)
    (hn : D.contr.size ⟨0, by omega⟩ = 128)
    (hl0 : ∀ i q, (D.lhsIdx i q (0 : Fin 2)).val = (i (0 : Fin 2)).val)
    (hl1 : ∀ i q, (D.lhsIdx i q (1 : Fin 2)).val = (q ⟨0, by omega⟩).val)
    (hr0 : ∀ i q, (D.rhsIdx i q (0 : Fin 2)).val = (q ⟨0, by omega⟩).val)
    (hr1 : ∀ i q, (D.rhsIdx i q (1 : Fin 2)).val = (i (1 : Fin 2)).val)
    (hs : (⟨2, ![100000, 1]⟩ : Shape).BroadcastsInDim ⟨2, ![100000, 128]⟩ ![0, 1])
    (hβ : (⟨2, ![1, 64]⟩ : Shape).BroadcastsInDim ⟨2, ![100000, 64]⟩ ![0, 1])
    (x0 x1 : (⟨2, ![4000, 128]⟩ : Shape).Idx → EReal) (x2 : (⟨2, ![4000, 1]⟩ : Shape).Idx → EReal)
    (x3 : (⟨2, ![128, 64]⟩ : Shape).Idx → EReal) (x4 : (⟨2, ![1, 64]⟩ : Shape).Idx → EReal)
    (M H : FVec Ideal ⟨2, ![100000, 128]⟩ .f32) (S : FVec Ideal ⟨2, ![100000, 1]⟩ .f32)
    (W : FVec Ideal ⟨2, ![128, 64]⟩ .f32) (B : FVec Ideal ⟨2, ![1, 64]⟩ .f32)
    (ρ : Fin 4000 → Fin 100000)
    (e0 : ∀ y k, x0 (ix2 y k) = M (ix2 (ρ y) k)) (e1 : ∀ y k, x1 (ix2 y k) = H (ix2 (ρ y) k))
    (e2 : ∀ y, x2 (ix2 y (0 : Fin 1)) = S (ix2 (ρ y) (0 : Fin 1)))
    (e3 : ∀ k q, x3 (ix2 k q) = W (ix2 k q)) (e4 : ∀ q, x4 (ix2 (0 : Fin 1) q) = B (ix2 (0 : Fin 1) q))
    (y : Fin 4000) (q : Fin 64) :
    (∑ k : Fin 128, ((x0 (ix2 y k) + x1 (ix2 y k)) * x2 (ix2 y (0 : Fin 1))) * x3 (ix2 k q)) + x4 (ix2 (0 : Fin 1) q)
      = Cert.Sage.lin D hs hβ M H S W B (ix2 (ρ y) q) := by
  rw [Cert.Sage.lin_apply D hr hn hl0 hl1 hr0 hr1]
  simp only [e0, e1, e2, e3, e4]

end Cert.KernelIdeal.Body

end
-- ==== Proof.Region0.lean ====
/-
  Region 0: the array it leaves is the layer's dense stage of the arrays it finds.

  The region walks the 100000 nodes in 25 blocks of 4000. At grid point `t` the feature windows and the scale column
  hold rows `4000 t … 4000 t + 3999` of their arrays, the weight and bias windows their whole arrays, and the body's
  stored block is written back to the same rows of the output. So what point `t` writes back is block `t` of ONE
  function of the whole arrays — the dense stage, activated — and, the 25 blocks covering every row, the output array ends
  holding that function. Everything is stated at the buffer contents `V` the region is entered with, whatever they are.
-/
import proofs.«150860_j5944234737795_1_alg».proof.Proof.Gen.KernelIdeal.Frame
import proofs.«150860_j5944234737795_1_alg».proof.Proof.Block
import Idealize.ShloMosaic.Lib.Pipeline.Value

set_option maxRecDepth 16384

noncomputable section

open scoped BigOperators

namespace Cert.KernelIdeal.Layer0

open Cert.KernelIdeal Cert.KernelIdeal.Gen Cert.KernelIdeal.Body
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))
variable (D : DotDims ⟨2, ![100000, 128]⟩ ⟨2, ![128, 128]⟩ ⟨2, ![100000, 128]⟩) (hr : D.contr.rank = 1)
    (hn : D.contr.size ⟨0, by omega⟩ = 128)
    (hl0 : ∀ i q, (D.lhsIdx i q (0 : Fin 2)).val = (i (0 : Fin 2)).val)
    (hl1 : ∀ i q, (D.lhsIdx i q (1 : Fin 2)).val = (q ⟨0, by omega⟩).val)
    (hr0 : ∀ i q, (D.rhsIdx i q (0 : Fin 2)).val = (q ⟨0, by omega⟩).val)
    (hr1 : ∀ i q, (D.rhsIdx i q (1 : Fin 2)).val = (i (1 : Fin 2)).val)
  (hs : (⟨2, ![100000, 1]⟩ : Shape).BroadcastsInDim ⟨2, ![100000, 128]⟩ ![0, 1])
  (hβ : (⟨2, ![1, 128]⟩ : Shape).BroadcastsInDim ⟨2, ![100000, 128]⟩ ![0, 1])
  (hz : (⟨0, ![]⟩ : Shape).BroadcastsInDim ⟨2, ![100000, 128]⟩ ![])

/-- The layer's dense stage, activated, of the arrays the region is entered with. -/
abbrev stage (c : Dev nD) : S100000x128.Idx → Elt Ideal .f32 :=
  Cert.Sage.relu (F := Ideal) hz (Cert.Sage.lin (F := Ideal) D hs hβ (V c main_v18) (V c main_arg0) (V c main_v8) (V c main_v19) (V c main_v20))

theorem zero_origin : (![0, 0] : Fin 2 → Nat) = fun _ => 0 := funext fun a => by fin_cases a <;> rfl

/-- The printed index maps, decided over the 25 grid points: the three row-blocked inputs move with the output (block
    `t` of the rows, the one block of the columns), the weights and the bias row stay at their one block. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

include hr hn hl0 hl1 hr0 hr1 in
/-- What grid point `t` writes back is block `t` of the dense stage of the arrays as the region finds them. -/
theorem flushed_eq (c : Dev nD) (t : Fin cfg0.N) :
    (dat0 V c).flushed 5 t = ((cfg0.win 5).blk t).view.read (Elt Ideal)
      (stage V D hs hβ hz c) := by
  show (cfg0.win 5).cut (grid0.coords t) ((dat0 V c).after 5 t) = _
  rw [after0_5]
  unfold out0_5
  rw [View.canon_unit_zero zero_origin]
  simp only [View.ld_unit_zero (S := S4000x128) zero_origin, View.ld_unit_zero (S := S4000x1) zero_origin,
    View.ld_unit_zero (S := S128x128) zero_origin, View.ld_unit_zero (S := S1x128) zero_origin]
  obtain ⟨a00, a01, a10, a11, a20, a21, a30, a31, a40, a41, a50, a51⟩ := idx_facts t
  have ht : t.val < 25 := lt_of_lt_of_eq t.isLt N_0
  -- the input blocks, read where the output's block sits
  have r0 : ∀ (y : Fin 4000) (k : Fin 128), iblk0 V c 0 t (ix2 y k) = V c main_v18 (ix2 (row t.val ht y) k) := fun y k => by
    show V c main_v18 (((cfg0.win 0).blk t).view.emb (ix2 y k)) = V c main_v18 (ix2 (row t.val ht y) k)
    refine congrArg (V c main_v18) (funext fun a => Fin.ext ?_)
    match a with
    | ⟨0, _⟩ => show win0_0.index t (0 : Fin 2) * 4000 + 1 * y.val = t.val * 4000 + y.val; omega
    | ⟨1, _⟩ => show win0_0.index t (1 : Fin 2) * 128 + 1 * k.val = k.val; omega
  have r1 : ∀ (y : Fin 4000) (k : Fin 128), iblk0 V c 1 t (ix2 y k) = V c main_arg0 (ix2 (row t.val ht y) k) := fun y k => by
    show V c main_arg0 (((cfg0.win 1).blk t).view.emb (ix2 y k)) = V c main_arg0 (ix2 (row t.val ht y) k)
    refine congrArg (V c main_arg0) (funext fun a => Fin.ext ?_)
    match a with
    | ⟨0, _⟩ => show win0_1.index t (0 : Fin 2) * 4000 + 1 * y.val = t.val * 4000 + y.val; omega
    | ⟨1, _⟩ => show win0_1.index t (1 : Fin 2) * 128 + 1 * k.val = k.val; omega
  have r2 : ∀ (y : Fin 4000), iblk0 V c 2 t (ix2 y (0 : Fin 1)) = V c main_v8 (ix2 (row t.val ht y) (0 : Fin 1)) := fun y => by
    show V c main_v8 (((cfg0.win 2).blk t).view.emb (ix2 y (0 : Fin 1))) = V c main_v8 (ix2 (row t.val ht y) (0 : Fin 1))
    refine congrArg (V c main_v8) (funext fun a => Fin.ext ?_)
    match a with
    | ⟨0, _⟩ => show win0_2.index t (0 : Fin 2) * 4000 + 1 * y.val = t.val * 4000 + y.val; omega
    | ⟨1, _⟩ => show win0_2.index t (1 : Fin 2) * 1 + 1 * 0 = 0; omega
  have r3 : ∀ (k : Fin 128) (q : Fin 128), iblk0 V c 3 t (ix2 k q) = V c main_v19 (ix2 k q) := fun k q => by
    show V c main_v19 (((cfg0.win 3).blk t).view.emb (ix2 k q)) = V c main_v19 (ix2 k q)
    refine congrArg (V c main_v19) (funext fun a => Fin.ext ?_)
    match a with
    | ⟨0, _⟩ => show win0_3.index t (0 : Fin 2) * 128 + 1 * k.val = k.val; omega
    | ⟨1, _⟩ => show win0_3.index t (1 : Fin 2) * 128 + 1 * q.val = q.val; omega
  have r4 : ∀ (q : Fin 128), iblk0 V c 4 t (ix2 (0 : Fin 1) q) = V c main_v20 (ix2 (0 : Fin 1) q) := fun q => by
    show V c main_v20 (((cfg0.win 4).blk t).view.emb (ix2 (0 : Fin 1) q)) = V c main_v20 (ix2 (0 : Fin 1) q)
    refine congrArg (V c main_v20) (funext fun a => Fin.ext ?_)
    match a with
    | ⟨0, _⟩ => show win0_4.index t (0 : Fin 2) * 1 + 1 * 0 = 0; omega
    | ⟨1, _⟩ => show win0_4.index t (1 : Fin 2) * 128 + 1 * q.val = q.val; omega
  funext j
  have hemb : ((cfg0.win 5).blk t).view.emb j = ix2 (row t.val ht (j 0)) (j 1) := funext fun a => Fin.ext (by
    match a with
    | ⟨0, _⟩ => show win0_5.index t (0 : Fin 2) * 4000 + 1 * (j 0).val = t.val * 4000 + (j 0).val; omega
    | ⟨1, _⟩ => show win0_5.index t (1 : Fin 2) * 128 + 1 * (j 1).val = (j 1).val; omega)
  show k0_pay1 (iblk0 V c 0 t) (iblk0 V c 1 t) (iblk0 V c 2 t) (iblk0 V c 3 t) (iblk0 V c 4 t) j
    = (stage V D hs hβ hz c) (((cfg0.win 5).blk t).view.emb j)
  rw [hemb]
  refine (congrArg (k0_pay1 (iblk0 V c 0 t) (iblk0 V c 1 t) (iblk0 V c 2 t) (iblk0 V c 3 t) (iblk0 V c 4 t)) (eq_ix2 j)).trans ?_
  refine (pay0_apply (iblk0 V c 0 t) (iblk0 V c 1 t) (iblk0 V c 2 t) (iblk0 V c 3 t) (iblk0 V c 4 t) (j 0) (j 1)).trans ?_
  exact hidden_entry D hr hn hl0 hl1 hr0 hr1 hs hβ hz (iblk0 V c 0 t) (iblk0 V c 1 t) (iblk0 V c 2 t) (iblk0 V c 3 t) (iblk0 V c 4 t)
    (V c main_v18) (V c main_arg0) (V c main_v8) (V c main_v19) (V c main_v20) (row t.val ht) r0 r1 r2 r3 r4 (j 0) (j 1)

/-- A row of the output array is in point `t`'s block iff it lies in rows `4000 t … 4000 t + 3999`. -/
theorem mem_blk (t : Fin cfg0.N) (i : S100000x128.Idx) :
    i ∈ ((cfg0.win 5).blk t).view.set ↔ ∀ a : Fin 2, win0_5.index t a * S4000x128.size a ≤ (i a).val ∧ (i a).val < win0_5.index t a * S4000x128.size a + S4000x128.size a := by
  show i ∈ ((View.whole main_v21).slice (win0_5.rect t)).set ↔ _
  rw [View.set_slice_whole, Rect.mem_set_unit]
  exact Iff.rfl

/-- Every entry of the output array is in some point's block: row `r` in that of point `r / 4000`. -/
theorem cover (i : S100000x128.Idx) : ∃ t : Fin cfg0.N, (cfg0.win 5).flush t = true ∧ i ∈ ((cfg0.win 5).blk t).view.set := by
  have hi0 : (i 0).val < 100000 := (i 0).isLt
  have hi1 : (i 1).val < 128 := (i 1).isLt
  have hN : cfg0.N = 25 := N_0
  refine ⟨⟨(i 0).val / 4000, by rw [hN]; omega⟩, flush0_5 _, ?_⟩
  rw [mem_blk]
  obtain ⟨a00, a01, a10, a11, a20, a21, a30, a31, a40, a41, a50, a51⟩ := idx_facts (⟨(i 0).val / 4000, by rw [hN]; omega⟩ : Fin cfg0.N)
  intro a
  match a with
  | ⟨0, _⟩ =>
    show win0_5.index _ (0 : Fin 2) * 4000 ≤ (i 0).val ∧ (i 0).val < win0_5.index _ (0 : Fin 2) * 4000 + 4000
    rw [a50]; show (i 0).val / 4000 * 4000 ≤ (i 0).val ∧ (i 0).val < (i 0).val / 4000 * 4000 + 4000; omega
  | ⟨1, _⟩ =>
    show win0_5.index _ (1 : Fin 2) * 128 ≤ (i 1).val ∧ (i 1).val < win0_5.index _ (1 : Fin 2) * 128 + 128
    rw [a51]; omega

include hr hn hl0 hl1 hr0 hr1 in
/-- The output array after the region: the dense stage, activated, of the arrays the region was entered with. -/
theorem final (c : Dev nD) :
    (dat0 V c).arrAt 5 cfg0.N = stage V D hs hβ hz c :=
  (dat0 V c).arrAt_eq_of_cover 5 _ (fun t _ => flushed_eq V D hr hn hl0 hl1 hr0 hr1 hs hβ hz c t) (cover)

end Cert.KernelIdeal.Layer0

end
-- ==== Proof.Region1.lean ====
/-
  Region 1: the array it leaves is the layer's dense stage of the arrays it finds.

  The region walks the 100000 nodes in 25 blocks of 4000. At grid point `t` the feature windows and the scale column
  hold rows `4000 t … 4000 t + 3999` of their arrays, the weight and bias windows their whole arrays, and the body's
  stored block is written back to the same rows of the output. So what point `t` writes back is block `t` of ONE
  function of the whole arrays — the dense stage, activated — and, the 25 blocks covering every row, the output array ends
  holding that function. Everything is stated at the buffer contents `V` the region is entered with, whatever they are.
-/
import proofs.«150860_j5944234737795_1_alg».proof.Proof.Gen.KernelIdeal.Frame
import proofs.«150860_j5944234737795_1_alg».proof.Proof.Block
import Idealize.ShloMosaic.Lib.Pipeline.Value

set_option maxRecDepth 16384

noncomputable section

open scoped BigOperators

namespace Cert.KernelIdeal.Layer1

open Cert.KernelIdeal Cert.KernelIdeal.Gen Cert.KernelIdeal.Body
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))
variable (D : DotDims ⟨2, ![100000, 128]⟩ ⟨2, ![128, 128]⟩ ⟨2, ![100000, 128]⟩) (hr : D.contr.rank = 1)
    (hn : D.contr.size ⟨0, by omega⟩ = 128)
    (hl0 : ∀ i q, (D.lhsIdx i q (0 : Fin 2)).val = (i (0 : Fin 2)).val)
    (hl1 : ∀ i q, (D.lhsIdx i q (1 : Fin 2)).val = (q ⟨0, by omega⟩).val)
    (hr0 : ∀ i q, (D.rhsIdx i q (0 : Fin 2)).val = (q ⟨0, by omega⟩).val)
    (hr1 : ∀ i q, (D.rhsIdx i q (1 : Fin 2)).val = (i (1 : Fin 2)).val)
  (hs : (⟨2, ![100000, 1]⟩ : Shape).BroadcastsInDim ⟨2, ![100000, 128]⟩ ![0, 1])
  (hβ : (⟨2, ![1, 128]⟩ : Shape).BroadcastsInDim ⟨2, ![100000, 128]⟩ ![0, 1])
  (hz : (⟨0, ![]⟩ : Shape).BroadcastsInDim ⟨2, ![100000, 128]⟩ ![])

/-- The layer's dense stage, activated, of the arrays the region is entered with. -/
abbrev stage (c : Dev nD) : S100000x128.Idx → Elt Ideal .f32 :=
  Cert.Sage.relu (F := Ideal) hz (Cert.Sage.lin (F := Ideal) D hs hβ (V c main_v31) (V c main_v21) (V c main_v8) (V c main_v32) (V c main_v33))

theorem zero_origin : (![0, 0] : Fin 2 → Nat) = fun _ => 0 := funext fun a => by fin_cases a <;> rfl

/-- The printed index maps, decided over the 25 grid points: the three row-blocked inputs move with the output (block
    `t` of the rows, the one block of the columns), the weights and the bias row stay at their one block. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

include hr hn hl0 hl1 hr0 hr1 in
/-- What grid point `t` writes back is block `t` of the dense stage of the arrays as the region finds them. -/
theorem flushed_eq (c : Dev nD) (t : Fin cfg1.N) :
    (dat1 V c).flushed 5 t = ((cfg1.win 5).blk t).view.read (Elt Ideal)
      (stage V D hs hβ hz c) := by
  show (cfg1.win 5).cut (grid1.coords t) ((dat1 V c).after 5 t) = _
  rw [after1_5]
  unfold out1_5
  rw [View.canon_unit_zero zero_origin]
  simp only [View.ld_unit_zero (S := S4000x128) zero_origin, View.ld_unit_zero (S := S4000x1) zero_origin,
    View.ld_unit_zero (S := S128x128) zero_origin, View.ld_unit_zero (S := S1x128) zero_origin]
  obtain ⟨a00, a01, a10, a11, a20, a21, a30, a31, a40, a41, a50, a51⟩ := idx_facts t
  have ht : t.val < 25 := lt_of_lt_of_eq t.isLt N_1
  -- the input blocks, read where the output's block sits
  have r0 : ∀ (y : Fin 4000) (k : Fin 128), iblk1 V c 0 t (ix2 y k) = V c main_v31 (ix2 (row t.val ht y) k) := fun y k => by
    show V c main_v31 (((cfg1.win 0).blk t).view.emb (ix2 y k)) = V c main_v31 (ix2 (row t.val ht y) k)
    refine congrArg (V c main_v31) (funext fun a => Fin.ext ?_)
    match a with
    | ⟨0, _⟩ => show win1_0.index t (0 : Fin 2) * 4000 + 1 * y.val = t.val * 4000 + y.val; omega
    | ⟨1, _⟩ => show win1_0.index t (1 : Fin 2) * 128 + 1 * k.val = k.val; omega
  have r1 : ∀ (y : Fin 4000) (k : Fin 128), iblk1 V c 1 t (ix2 y k) = V c main_v21 (ix2 (row t.val ht y) k) := fun y k => by
    show V c main_v21 (((cfg1.win 1).blk t).view.emb (ix2 y k)) = V c main_v21 (ix2 (row t.val ht y) k)
    refine congrArg (V c main_v21) (funext fun a => Fin.ext ?_)
    match a with
    | ⟨0, _⟩ => show win1_1.index t (0 : Fin 2) * 4000 + 1 * y.val = t.val * 4000 + y.val; omega
    | ⟨1, _⟩ => show win1_1.index t (1 : Fin 2) * 128 + 1 * k.val = k.val; omega
  have r2 : ∀ (y : Fin 4000), iblk1 V c 2 t (ix2 y (0 : Fin 1)) = V c main_v8 (ix2 (row t.val ht y) (0 : Fin 1)) := fun y => by
    show V c main_v8 (((cfg1.win 2).blk t).view.emb (ix2 y (0 : Fin 1))) = V c main_v8 (ix2 (row t.val ht y) (0 : Fin 1))
    refine congrArg (V c main_v8) (funext fun a => Fin.ext ?_)
    match a with
    | ⟨0, _⟩ => show win1_2.index t (0 : Fin 2) * 4000 + 1 * y.val = t.val * 4000 + y.val; omega
    | ⟨1, _⟩ => show win1_2.index t (1 : Fin 2) * 1 + 1 * 0 = 0; omega
  have r3 : ∀ (k : Fin 128) (q : Fin 128), iblk1 V c 3 t (ix2 k q) = V c main_v32 (ix2 k q) := fun k q => by
    show V c main_v32 (((cfg1.win 3).blk t).view.emb (ix2 k q)) = V c main_v32 (ix2 k q)
    refine congrArg (V c main_v32) (funext fun a => Fin.ext ?_)
    match a with
    | ⟨0, _⟩ => show win1_3.index t (0 : Fin 2) * 128 + 1 * k.val = k.val; omega
    | ⟨1, _⟩ => show win1_3.index t (1 : Fin 2) * 128 + 1 * q.val = q.val; omega
  have r4 : ∀ (q : Fin 128), iblk1 V c 4 t (ix2 (0 : Fin 1) q) = V c main_v33 (ix2 (0 : Fin 1) q) := fun q => by
    show V c main_v33 (((cfg1.win 4).blk t).view.emb (ix2 (0 : Fin 1) q)) = V c main_v33 (ix2 (0 : Fin 1) q)
    refine congrArg (V c main_v33) (funext fun a => Fin.ext ?_)
    match a with
    | ⟨0, _⟩ => show win1_4.index t (0 : Fin 2) * 1 + 1 * 0 = 0; omega
    | ⟨1, _⟩ => show win1_4.index t (1 : Fin 2) * 128 + 1 * q.val = q.val; omega
  funext j
  have hemb : ((cfg1.win 5).blk t).view.emb j = ix2 (row t.val ht (j 0)) (j 1) := funext fun a => Fin.ext (by
    match a with
    | ⟨0, _⟩ => show win1_5.index t (0 : Fin 2) * 4000 + 1 * (j 0).val = t.val * 4000 + (j 0).val; omega
    | ⟨1, _⟩ => show win1_5.index t (1 : Fin 2) * 128 + 1 * (j 1).val = (j 1).val; omega)
  show k1_pay1 (iblk1 V c 0 t) (iblk1 V c 1 t) (iblk1 V c 2 t) (iblk1 V c 3 t) (iblk1 V c 4 t) j
    = (stage V D hs hβ hz c) (((cfg1.win 5).blk t).view.emb j)
  rw [hemb]
  refine (congrArg (k1_pay1 (iblk1 V c 0 t) (iblk1 V c 1 t) (iblk1 V c 2 t) (iblk1 V c 3 t) (iblk1 V c 4 t)) (eq_ix2 j)).trans ?_
  refine (pay1_apply (iblk1 V c 0 t) (iblk1 V c 1 t) (iblk1 V c 2 t) (iblk1 V c 3 t) (iblk1 V c 4 t) (j 0) (j 1)).trans ?_
  exact hidden_entry D hr hn hl0 hl1 hr0 hr1 hs hβ hz (iblk1 V c 0 t) (iblk1 V c 1 t) (iblk1 V c 2 t) (iblk1 V c 3 t) (iblk1 V c 4 t)
    (V c main_v31) (V c main_v21) (V c main_v8) (V c main_v32) (V c main_v33) (row t.val ht) r0 r1 r2 r3 r4 (j 0) (j 1)

/-- A row of the output array is in point `t`'s block iff it lies in rows `4000 t … 4000 t + 3999`. -/
theorem mem_blk (t : Fin cfg1.N) (i : S100000x128.Idx) :
    i ∈ ((cfg1.win 5).blk t).view.set ↔ ∀ a : Fin 2, win1_5.index t a * S4000x128.size a ≤ (i a).val ∧ (i a).val < win1_5.index t a * S4000x128.size a + S4000x128.size a := by
  show i ∈ ((View.whole main_v34).slice (win1_5.rect t)).set ↔ _
  rw [View.set_slice_whole, Rect.mem_set_unit]
  exact Iff.rfl

/-- Every entry of the output array is in some point's block: row `r` in that of point `r / 4000`. -/
theorem cover (i : S100000x128.Idx) : ∃ t : Fin cfg1.N, (cfg1.win 5).flush t = true ∧ i ∈ ((cfg1.win 5).blk t).view.set := by
  have hi0 : (i 0).val < 100000 := (i 0).isLt
  have hi1 : (i 1).val < 128 := (i 1).isLt
  have hN : cfg1.N = 25 := N_1
  refine ⟨⟨(i 0).val / 4000, by rw [hN]; omega⟩, flush1_5 _, ?_⟩
  rw [mem_blk]
  obtain ⟨a00, a01, a10, a11, a20, a21, a30, a31, a40, a41, a50, a51⟩ := idx_facts (⟨(i 0).val / 4000, by rw [hN]; omega⟩ : Fin cfg1.N)
  intro a
  match a with
  | ⟨0, _⟩ =>
    show win1_5.index _ (0 : Fin 2) * 4000 ≤ (i 0).val ∧ (i 0).val < win1_5.index _ (0 : Fin 2) * 4000 + 4000
    rw [a50]; show (i 0).val / 4000 * 4000 ≤ (i 0).val ∧ (i 0).val < (i 0).val / 4000 * 4000 + 4000; omega
  | ⟨1, _⟩ =>
    show win1_5.index _ (1 : Fin 2) * 128 ≤ (i 1).val ∧ (i 1).val < win1_5.index _ (1 : Fin 2) * 128 + 128
    rw [a51]; omega

include hr hn hl0 hl1 hr0 hr1 in
/-- The output array after the region: the dense stage, activated, of the arrays the region was entered with. -/
theorem final (c : Dev nD) :
    (dat1 V c).arrAt 5 cfg1.N = stage V D hs hβ hz c :=
  (dat1 V c).arrAt_eq_of_cover 5 _ (fun t _ => flushed_eq V D hr hn hl0 hl1 hr0 hr1 hs hβ hz c t) (cover)

end Cert.KernelIdeal.Layer1

end
-- ==== Proof.Region2.lean ====
/-
  Region 2: the array it leaves is the layer's dense stage of the arrays it finds.

  The region walks the 100000 nodes in 25 blocks of 4000. At grid point `t` the feature windows and the scale column
  hold rows `4000 t … 4000 t + 3999` of their arrays, the weight and bias windows their whole arrays, and the body's
  stored block is written back to the same rows of the output. So what point `t` writes back is block `t` of ONE
  function of the whole arrays — the dense stage, not activated in this last layer — and, the 25 blocks covering every row, the output array ends
  holding that function. Everything is stated at the buffer contents `V` the region is entered with, whatever they are.
-/
import proofs.«150860_j5944234737795_1_alg».proof.Proof.Gen.KernelIdeal.Frame
import proofs.«150860_j5944234737795_1_alg».proof.Proof.Block
import Idealize.ShloMosaic.Lib.Pipeline.Value

set_option maxRecDepth 16384

noncomputable section

open scoped BigOperators

namespace Cert.KernelIdeal.Layer2

open Cert.KernelIdeal Cert.KernelIdeal.Gen Cert.KernelIdeal.Body
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))
variable (D : DotDims ⟨2, ![100000, 128]⟩ ⟨2, ![128, 64]⟩ ⟨2, ![100000, 64]⟩) (hr : D.contr.rank = 1)
    (hn : D.contr.size ⟨0, by omega⟩ = 128)
    (hl0 : ∀ i q, (D.lhsIdx i q (0 : Fin 2)).val = (i (0 : Fin 2)).val)
    (hl1 : ∀ i q, (D.lhsIdx i q (1 : Fin 2)).val = (q ⟨0, by omega⟩).val)
    (hr0 : ∀ i q, (D.rhsIdx i q (0 : Fin 2)).val = (q ⟨0, by omega⟩).val)
    (hr1 : ∀ i q, (D.rhsIdx i q (1 : Fin 2)).val = (i (1 : Fin 2)).val)
  (hs : (⟨2, ![100000, 1]⟩ : Shape).BroadcastsInDim ⟨2, ![100000, 128]⟩ ![0, 1])
  (hβ : (⟨2, ![1, 64]⟩ : Shape).BroadcastsInDim ⟨2, ![100000, 64]⟩ ![0, 1])

/-- The last layer's dense stage of the arrays the region is entered with. -/
abbrev stage (c : Dev nD) : S100000x64.Idx → Elt Ideal .f32 :=
  Cert.Sage.lin (F := Ideal) D hs hβ (V c main_v44) (V c main_v34) (V c main_v8) (V c main_v45) (V c main_v46)

theorem zero_origin : (![0, 0] : Fin 2 → Nat) = fun _ => 0 := funext fun a => by fin_cases a <;> rfl

/-- The printed index maps, decided over the 25 grid points: the three row-blocked inputs move with the output (block
    `t` of the rows, the one block of the columns), the weights and the bias row stay at their one block. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

include hr hn hl0 hl1 hr0 hr1 in
/-- What grid point `t` writes back is block `t` of the dense stage of the arrays as the region finds them. -/
theorem flushed_eq (c : Dev nD) (t : Fin cfg2.N) :
    (dat2 V c).flushed 5 t = ((cfg2.win 5).blk t).view.read (Elt Ideal)
      (stage V D hs hβ c) := by
  show (cfg2.win 5).cut (grid2.coords t) ((dat2 V c).after 5 t) = _
  rw [after2_5]
  unfold out2_5
  rw [View.canon_unit_zero zero_origin]
  simp only [View.ld_unit_zero (S := S4000x128) zero_origin, View.ld_unit_zero (S := S4000x1) zero_origin,
    View.ld_unit_zero (S := S128x64) zero_origin, View.ld_unit_zero (S := S1x64) zero_origin]
  obtain ⟨a00, a01, a10, a11, a20, a21, a30, a31, a40, a41, a50, a51⟩ := idx_facts t
  have ht : t.val < 25 := lt_of_lt_of_eq t.isLt N_2
  -- the input blocks, read where the output's block sits
  have r0 : ∀ (y : Fin 4000) (k : Fin 128), iblk2 V c 0 t (ix2 y k) = V c main_v44 (ix2 (row t.val ht y) k) := fun y k => by
    show V c main_v44 (((cfg2.win 0).blk t).view.emb (ix2 y k)) = V c main_v44 (ix2 (row t.val ht y) k)
    refine congrArg (V c main_v44) (funext fun a => Fin.ext ?_)
    match a with
    | ⟨0, _⟩ => show win2_0.index t (0 : Fin 2) * 4000 + 1 * y.val = t.val * 4000 + y.val; omega
    | ⟨1, _⟩ => show win2_0.index t (1 : Fin 2) * 128 + 1 * k.val = k.val; omega
  have r1 : ∀ (y : Fin 4000) (k : Fin 128), iblk2 V c 1 t (ix2 y k) = V c main_v34 (ix2 (row t.val ht y) k) := fun y k => by
    show V c main_v34 (((cfg2.win 1).blk t).view.emb (ix2 y k)) = V c main_v34 (ix2 (row t.val ht y) k)
    refine congrArg (V c main_v34) (funext fun a => Fin.ext ?_)
    match a with
    | ⟨0, _⟩ => show win2_1.index t (0 : Fin 2) * 4000 + 1 * y.val = t.val * 4000 + y.val; omega
    | ⟨1, _⟩ => show win2_1.index t (1 : Fin 2) * 128 + 1 * k.val = k.val; omega
  have r2 : ∀ (y : Fin 4000), iblk2 V c 2 t (ix2 y (0 : Fin 1)) = V c main_v8 (ix2 (row t.val ht y) (0 : Fin 1)) := fun y => by
    show V c main_v8 (((cfg2.win 2).blk t).view.emb (ix2 y (0 : Fin 1))) = V c main_v8 (ix2 (row t.val ht y) (0 : Fin 1))
    refine congrArg (V c main_v8) (funext fun a => Fin.ext ?_)
    match a with
    | ⟨0, _⟩ => show win2_2.index t (0 : Fin 2) * 4000 + 1 * y.val = t.val * 4000 + y.val; omega
    | ⟨1, _⟩ => show win2_2.index t (1 : Fin 2) * 1 + 1 * 0 = 0; omega
  have r3 : ∀ (k : Fin 128) (q : Fin 64), iblk2 V c 3 t (ix2 k q) = V c main_v45 (ix2 k q) := fun k q => by
    show V c main_v45 (((cfg2.win 3).blk t).view.emb (ix2 k q)) = V c main_v45 (ix2 k q)
    refine congrArg (V c main_v45) (funext fun a => Fin.ext ?_)
    match a with
    | ⟨0, _⟩ => show win2_3.index t (0 : Fin 2) * 128 + 1 * k.val = k.val; omega
    | ⟨1, _⟩ => show win2_3.index t (1 : Fin 2) * 64 + 1 * q.val = q.val; omega
  have r4 : ∀ (q : Fin 64), iblk2 V c 4 t (ix2 (0 : Fin 1) q) = V c main_v46 (ix2 (0 : Fin 1) q) := fun q => by
    show V c main_v46 (((cfg2.win 4).blk t).view.emb (ix2 (0 : Fin 1) q)) = V c main_v46 (ix2 (0 : Fin 1) q)
    refine congrArg (V c main_v46) (funext fun a => Fin.ext ?_)
    match a with
    | ⟨0, _⟩ => show win2_4.index t (0 : Fin 2) * 1 + 1 * 0 = 0; omega
    | ⟨1, _⟩ => show win2_4.index t (1 : Fin 2) * 64 + 1 * q.val = q.val; omega
  funext j
  have hemb : ((cfg2.win 5).blk t).view.emb j = ix2 (row t.val ht (j 0)) (j 1) := funext fun a => Fin.ext (by
    match a with
    | ⟨0, _⟩ => show win2_5.index t (0 : Fin 2) * 4000 + 1 * (j 0).val = t.val * 4000 + (j 0).val; omega
    | ⟨1, _⟩ => show win2_5.index t (1 : Fin 2) * 64 + 1 * (j 1).val = (j 1).val; omega)
  show k2_pay1 (iblk2 V c 0 t) (iblk2 V c 1 t) (iblk2 V c 2 t) (iblk2 V c 3 t) (iblk2 V c 4 t) j
    = (stage V D hs hβ c) (((cfg2.win 5).blk t).view.emb j)
  rw [hemb]
  refine (congrArg (k2_pay1 (iblk2 V c 0 t) (iblk2 V c 1 t) (iblk2 V c 2 t) (iblk2 V c 3 t) (iblk2 V c 4 t)) (eq_ix2 j)).trans ?_
  refine (pay2_apply (iblk2 V c 0 t) (iblk2 V c 1 t) (iblk2 V c 2 t) (iblk2 V c 3 t) (iblk2 V c 4 t) (j 0) (j 1)).trans ?_
  exact last_entry D hr hn hl0 hl1 hr0 hr1 hs hβ (iblk2 V c 0 t) (iblk2 V c 1 t) (iblk2 V c 2 t) (iblk2 V c 3 t) (iblk2 V c 4 t)
    (V c main_v44) (V c main_v34) (V c main_v8) (V c main_v45) (V c main_v46) (row t.val ht) r0 r1 r2 r3 r4 (j 0) (j 1)

/-- A row of the output array is in point `t`'s block iff it lies in rows `4000 t … 4000 t + 3999`. -/
theorem mem_blk (t : Fin cfg2.N) (i : S100000x64.Idx) :
    i ∈ ((cfg2.win 5).blk t).view.set ↔ ∀ a : Fin 2, win2_5.index t a * S4000x64.size a ≤ (i a).val ∧ (i a).val < win2_5.index t a * S4000x64.size a + S4000x64.size a := by
  show i ∈ ((View.whole main_v47).slice (win2_5.rect t)).set ↔ _
  rw [View.set_slice_whole, Rect.mem_set_unit]
  exact Iff.rfl

/-- Every entry of the output array is in some point's block: row `r` in that of point `r / 4000`. -/
theorem cover (i : S100000x64.Idx) : ∃ t : Fin cfg2.N, (cfg2.win 5).flush t = true ∧ i ∈ ((cfg2.win 5).blk t).view.set := by
  have hi0 : (i 0).val < 100000 := (i 0).isLt
  have hi1 : (i 1).val < 64 := (i 1).isLt
  have hN : cfg2.N = 25 := N_2
  refine ⟨⟨(i 0).val / 4000, by rw [hN]; omega⟩, flush2_5 _, ?_⟩
  rw [mem_blk]
  obtain ⟨a00, a01, a10, a11, a20, a21, a30, a31, a40, a41, a50, a51⟩ := idx_facts (⟨(i 0).val / 4000, by rw [hN]; omega⟩ : Fin cfg2.N)
  intro a
  match a with
  | ⟨0, _⟩ =>
    show win2_5.index _ (0 : Fin 2) * 4000 ≤ (i 0).val ∧ (i 0).val < win2_5.index _ (0 : Fin 2) * 4000 + 4000
    rw [a50]; show (i 0).val / 4000 * 4000 ≤ (i 0).val ∧ (i 0).val < (i 0).val / 4000 * 4000 + 4000; omega
  | ⟨1, _⟩ =>
    show win2_5.index _ (1 : Fin 2) * 64 ≤ (i 1).val ∧ (i 1).val < win2_5.index _ (1 : Fin 2) * 64 + 64
    rw [a51]; omega

include hr hn hl0 hl1 hr0 hr1 in
/-- The output array after the region: the dense stage of the arrays the region was entered with. -/
theorem final (c : Dev nD) :
    (dat2 V c).arrAt 5 cfg2.N = stage V D hs hβ c :=
  (dat2 V c).arrAt_eq_of_cover 5 _ (fun t _ => flushed_eq V D hr hn hl0 hl1 hr0 hr1 hs hβ c t) (cover)

end Cert.KernelIdeal.Layer2

end
-- ==== Proof.HostFns.lean ====
/-
  The network as one function of its nine arguments.

  Both programs compute, on the host, the per-node scale column `1 / (in-degree + 1)` (`scale`: a sum of ones scattered
  to the edges' destinations, one added, the reciprocal, stood up as a column) and, per layer, the neighbours' features
  summed at each destination (`agg`: the rows of the edges' sources gathered — a negative source index wrapped once by the
  number of nodes — and scatter-added at the destinations), the transposed weights and the bias laid down as a row. A
  layer is then the dense stage (`Cert.Sage.lin`, activated in the two hidden layers) of those. `net` composes the
  three layers; the dense stage's dimension records are parameters, so that the same text serves the reference's records.
-/
import proofs.«150860_j5944234737795_1_alg».proof.KernelIdeal
import proofs.«150860_j5944234737795_1_alg».proof.Proof.Dense

noncomputable section

namespace Cert.KernelIdeal.Net

open Cert.KernelIdeal Idealize.ShloMosaic
open Cert.KernelIdeal.Facts₀ Cert.KernelIdeal.Facts

variable [Cert.KernelIdeal.Facts]
variable {F : FTy → Type} [FloatOps F]

/-- The scale column: one over the in-degree plus one, per node. -/
def scale (dst : (⟨S1600000, .i32⟩ : BufTy).Contents (Elt F)) : (⟨S100000x1, .f32⟩ : BufTy).Contents (Elt F) :=
  broadcastInDim S100000x1 ![0] bcast_S100000_S100000x1_0
    (Host.divf (broadcastInDim S100000 ![] bcast_S_S100000 (constant S_ .f32 0x3F800000#32))
      (addf
        (Host.scatterAdd scatter_S100000_S1600000x1_S1600000_n_0_0_1
          (broadcastInDim S100000 ![] bcast_S_S100000 (constant S_ .f32 0x00000000#32))
          (broadcastInDim S1600000x1 ![0] bcast_S1600000_S1600000x1_0 dst)
          (broadcastInDim S1600000 ![] bcast_S_S1600000 (constant S_ .f32 0x3F800000#32)))
        (broadcastInDim S100000 ![] bcast_S_S100000 (constant S_ .f32 0x3F800000#32))))

/-- The neighbours' features summed at each destination node. -/
def agg (src dst : (⟨S1600000, .i32⟩ : BufTy).Contents (Elt F)) (h : (⟨S100000x128, .f32⟩ : BufTy).Contents (Elt F)) :
    (⟨S100000x128, .f32⟩ : BufTy).Contents (Elt F) :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0 dst)
    (Host.gather gather_S100000x128_S1600000x1_S1600000x128_1_0_n_n_0_1_1128 h
      (broadcastInDim S1600000x1 ![0] bcast_S1600000_S1600000x1_0
        (select (cmpi .slt src (broadcastInDim S1600000 ![] bcast_S_S1600000 (constantI S_ 32 0#32)))
          (addi src (broadcastInDim S1600000 ![] bcast_S_S1600000 (constantI S_ 32 100000#32)))
          src)))

/-- The weights transposed, hidden layers. -/
def wt128 (w : (⟨S128x128, .f32⟩ : BufTy).Contents (Elt F)) : (⟨S128x128, .f32⟩ : BufTy).Contents (Elt F) :=
  transpose S128x128 [1, 0] w transposes_S128x128_S128x128_1_0
/-- The weights transposed, last layer. -/
def wt64 (w : (⟨S64x128, .f32⟩ : BufTy).Contents (Elt F)) : (⟨S128x64, .f32⟩ : BufTy).Contents (Elt F) :=
  transpose S128x64 [1, 0] w transposes_S64x128_S128x64_1_0
/-- The bias as a row, hidden layers. -/
def row128 (b : (⟨S128, .f32⟩ : BufTy).Contents (Elt F)) : (⟨S1x128, .f32⟩ : BufTy).Contents (Elt F) :=
  broadcastInDim S1x128 ![1] bcast_S128_S1x128_1 b
/-- The bias as a row, last layer. -/
def row64 (b : (⟨S64, .f32⟩ : BufTy).Contents (Elt F)) : (⟨S1x64, .f32⟩ : BufTy).Contents (Elt F) :=
  broadcastInDim S1x64 ![1] bcast_S64_S1x64_1 b

section Net

variable (D : DotDims ⟨2, ![100000, 128]⟩ ⟨2, ![128, 128]⟩ ⟨2, ![100000, 128]⟩)
  (D' : DotDims ⟨2, ![100000, 128]⟩ ⟨2, ![128, 64]⟩ ⟨2, ![100000, 64]⟩)
  (hs : (⟨2, ![100000, 1]⟩ : Shape).BroadcastsInDim ⟨2, ![100000, 128]⟩ ![0, 1])
  (hβ : (⟨2, ![1, 128]⟩ : Shape).BroadcastsInDim ⟨2, ![100000, 128]⟩ ![0, 1])
  (hβ' : (⟨2, ![1, 64]⟩ : Shape).BroadcastsInDim ⟨2, ![100000, 64]⟩ ![0, 1])
  (hz : (⟨0, ![]⟩ : Shape).BroadcastsInDim ⟨2, ![100000, 128]⟩ ![])

/-- A hidden layer: the activated dense stage of the aggregated and own features. -/
def hidden (src dst : (⟨S1600000, .i32⟩ : BufTy).Contents (Elt F)) (h : (⟨S100000x128, .f32⟩ : BufTy).Contents (Elt F))
    (w : (⟨S128x128, .f32⟩ : BufTy).Contents (Elt F)) (b : (⟨S128, .f32⟩ : BufTy).Contents (Elt F)) :
    (⟨S100000x128, .f32⟩ : BufTy).Contents (Elt F) :=
  Cert.Sage.relu hz (Cert.Sage.lin D hs hβ (agg src dst h) h (scale dst) (wt128 w) (row128 b))

/-- The last layer: the dense stage, not activated. -/
def last (src dst : (⟨S1600000, .i32⟩ : BufTy).Contents (Elt F)) (h : (⟨S100000x128, .f32⟩ : BufTy).Contents (Elt F))
    (w : (⟨S64x128, .f32⟩ : BufTy).Contents (Elt F)) (b : (⟨S64, .f32⟩ : BufTy).Contents (Elt F)) :
    (⟨S100000x64, .f32⟩ : BufTy).Contents (Elt F) :=
  Cert.Sage.lin D' hs hβ' (agg src dst h) h (scale dst) (wt64 w) (row64 b)

/-- The three layers. -/
def net (x : (⟨S100000x128, .f32⟩ : BufTy).Contents (Elt F)) (src dst : (⟨S1600000, .i32⟩ : BufTy).Contents (Elt F))
    (w1 : (⟨S128x128, .f32⟩ : BufTy).Contents (Elt F)) (b1 : (⟨S128, .f32⟩ : BufTy).Contents (Elt F))
    (w2 : (⟨S128x128, .f32⟩ : BufTy).Contents (Elt F)) (b2 : (⟨S128, .f32⟩ : BufTy).Contents (Elt F))
    (w3 : (⟨S64x128, .f32⟩ : BufTy).Contents (Elt F)) (b3 : (⟨S64, .f32⟩ : BufTy).Contents (Elt F)) :
    (⟨S100000x64, .f32⟩ : BufTy).Contents (Elt F) :=
  last D' hs hβ' src dst (hidden D hs hβ hz src dst (hidden D hs hβ hz src dst x w1 b1) w2 b2) w3 b3

end Net

end Cert.KernelIdeal.Net

end
-- ==== Proof.KernelValue.lean ====
/-
  The result array of the three-layer program, as the network of its arguments.

  The buffer contents at the boundaries between host stretches and regions are a fold from the launch memory
  (`W0` … `W6` of the generated frame). Walking it forward: after the first host stretch the first region's
  operands hold the aggregated input features, the input features, the scale column, the transposed weights and the
  bias row of layer one; the region leaves the activated dense stage of those (the first hidden features) in its
  output array and every other buffer as it was; the next stretch aggregates those features and lays down layer
  two's weights and bias; and so on through the third region, whose output array is the program's result. At each
  boundary the argument arrays and the scale column still hold what they held before.
-/
import proofs.«150860_j5944234737795_1_alg».proof.Proof.Gen.KernelIdeal.Frame
import proofs.«150860_j5944234737795_1_alg».proof.Proof.Region0
import proofs.«150860_j5944234737795_1_alg».proof.Proof.Region1
import proofs.«150860_j5944234737795_1_alg».proof.Proof.Region2
import proofs.«150860_j5944234737795_1_alg».proof.Proof.HostFns

set_option maxRecDepth 16384

noncomputable section

namespace Cert.KernelIdeal.Out

open Cert.KernelIdeal Cert.KernelIdeal.Gen Cert.KernelIdeal.Net
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## After the first host stretch -/

set_option maxHeartbeats 4000000 in
theorem w1_agg : V1 m ρ c main_v18 = agg (m ((c : Thread nD τ).loc main_arg1)) (m ((c : Thread nD τ).loc main_arg2)) (m ((c : Thread nD τ).loc main_arg0)) := by
  show StableHlo.after hostOps0 (W0 m ρ c) (Proc.devRef .tc main_v18) = _
  after_results_simp <;> rfl
set_option maxHeartbeats 4000000 in
theorem w1_scale : V1 m ρ c main_v8 = scale (m ((c : Thread nD τ).loc main_arg2)) := by
  show StableHlo.after hostOps0 (W0 m ρ c) (Proc.devRef .tc main_v8) = _
  after_results_simp <;> rfl
set_option maxHeartbeats 4000000 in
theorem w1_wt : V1 m ρ c main_v19 = wt128 (m ((c : Thread nD τ).loc main_arg3)) := by
  show StableHlo.after hostOps0 (W0 m ρ c) (Proc.devRef .tc main_v19) = _
  after_results_simp <;> rfl
set_option maxHeartbeats 4000000 in
theorem w1_row : V1 m ρ c main_v20 = row128 (m ((c : Thread nD τ).loc main_arg4)) := by
  show StableHlo.after hostOps0 (W0 m ρ c) (Proc.devRef .tc main_v20) = _
  after_results_simp <;> rfl
set_option maxHeartbeats 4000000 in
theorem w1_arg0 : V1 m ρ c main_arg0 = (m ((c : Thread nD τ).loc main_arg0)) := by
  show StableHlo.after hostOps0 (W0 m ρ c) (Proc.devRef .tc main_arg0) = _
  after_results_simp <;> rfl
set_option maxHeartbeats 4000000 in
theorem w1_arg1 : V1 m ρ c main_arg1 = (m ((c : Thread nD τ).loc main_arg1)) := by
  show StableHlo.after hostOps0 (W0 m ρ c) (Proc.devRef .tc main_arg1) = _
  after_results_simp <;> rfl
set_option maxHeartbeats 4000000 in
theorem w1_arg2 : V1 m ρ c main_arg2 = (m ((c : Thread nD τ).loc main_arg2)) := by
  show StableHlo.after hostOps0 (W0 m ρ c) (Proc.devRef .tc main_arg2) = _
  after_results_simp <;> rfl
set_option maxHeartbeats 4000000 in
theorem w1_arg5 : V1 m ρ c main_arg5 = (m ((c : Thread nD τ).loc main_arg5)) := by
  show StableHlo.after hostOps0 (W0 m ρ c) (Proc.devRef .tc main_arg5) = _
  after_results_simp <;> rfl
set_option maxHeartbeats 4000000 in
theorem w1_arg6 : V1 m ρ c main_arg6 = (m ((c : Thread nD τ).loc main_arg6)) := by
  show StableHlo.after hostOps0 (W0 m ρ c) (Proc.devRef .tc main_arg6) = _
  after_results_simp <;> rfl
set_option maxHeartbeats 4000000 in
theorem w1_arg7 : V1 m ρ c main_arg7 = (m ((c : Thread nD τ).loc main_arg7)) := by
  show StableHlo.after hostOps0 (W0 m ρ c) (Proc.devRef .tc main_arg7) = _
  after_results_simp <;> rfl
set_option maxHeartbeats 4000000 in
theorem w1_arg8 : V1 m ρ c main_arg8 = (m ((c : Thread nD τ).loc main_arg8)) := by
  show StableHlo.after hostOps0 (W0 m ρ c) (Proc.devRef .tc main_arg8) = _
  after_results_simp <;> rfl

variable (D : DotDims ⟨2, ![100000, 128]⟩ ⟨2, ![128, 128]⟩ ⟨2, ![100000, 128]⟩) (hr : D.contr.rank = 1)
    (hn : D.contr.size ⟨0, by omega⟩ = 128)
    (hl0 : ∀ i q, (D.lhsIdx i q (0 : Fin 2)).val = (i (0 : Fin 2)).val)
    (hl1 : ∀ i q, (D.lhsIdx i q (1 : Fin 2)).val = (q ⟨0, by omega⟩).val)
    (hr0 : ∀ i q, (D.rhsIdx i q (0 : Fin 2)).val = (q ⟨0, by omega⟩).val)
    (hr1 : ∀ i q, (D.rhsIdx i q (1 : Fin 2)).val = (i (1 : Fin 2)).val)
variable (D' : DotDims ⟨2, ![100000, 128]⟩ ⟨2, ![128, 64]⟩ ⟨2, ![100000, 64]⟩) (hr' : D'.contr.rank = 1)
    (hn' : D'.contr.size ⟨0, by omega⟩ = 128)
    (hl0' : ∀ i q, (D'.lhsIdx i q (0 : Fin 2)).val = (i (0 : Fin 2)).val)
    (hl1' : ∀ i q, (D'.lhsIdx i q (1 : Fin 2)).val = (q ⟨0, by omega⟩).val)
    (hr0' : ∀ i q, (D'.rhsIdx i q (0 : Fin 2)).val = (q ⟨0, by omega⟩).val)
    (hr1' : ∀ i q, (D'.rhsIdx i q (1 : Fin 2)).val = (i (1 : Fin 2)).val)
variable (hs : (⟨2, ![100000, 1]⟩ : Shape).BroadcastsInDim ⟨2, ![100000, 128]⟩ ![0, 1])
  (hβ : (⟨2, ![1, 128]⟩ : Shape).BroadcastsInDim ⟨2, ![100000, 128]⟩ ![0, 1])
  (hβ' : (⟨2, ![1, 64]⟩ : Shape).BroadcastsInDim ⟨2, ![100000, 64]⟩ ![0, 1])
  (hz : (⟨0, ![]⟩ : Shape).BroadcastsInDim ⟨2, ![100000, 128]⟩ ![])

/-! ## After the first region -/

include hr hn hl0 hl1 hr0 hr1 in
/-- The first region's output: the first hidden features. -/
theorem w2_h : V2 m ρ c main_v21 = hidden D hs hβ hz (m ((c : Thread nD τ).loc main_arg1)) (m ((c : Thread nD τ).loc main_arg2)) (m ((c : Thread nD τ).loc main_arg0)) (m ((c : Thread nD τ).loc main_arg3)) (m ((c : Thread nD τ).loc main_arg4)) := by
  refine (W2_arr m ρ c 5).trans ((Layer0.final (V1 m ρ) D hr hn hl0 hl1 hr0 hr1 hs hβ hz c).trans ?_)
  unfold Layer0.stage
  rw [w1_agg, w1_arg0, w1_scale, w1_wt, w1_row]; rfl
/-- The scale column is an input window's array of the region: the region leaves it as it found it. -/
theorem w2_scale : V2 m ρ c main_v8 = scale (m ((c : Thread nD τ).loc main_arg2)) :=
  ((W2_arr m ρ c 2).trans (((dat0 (V1 m ρ) c).arrAt_in 2 rfl _).trans (A_eq0 (V1 m ρ) c 2))).trans (w1_scale m ρ c)
theorem w2_arg1 : V2 m ρ c main_arg1 = (m ((c : Thread nD τ).loc main_arg1)) := (W2_of_ne m ρ c main_arg1 (by decide)).trans (w1_arg1 m ρ c)
theorem w2_arg2 : V2 m ρ c main_arg2 = (m ((c : Thread nD τ).loc main_arg2)) := (W2_of_ne m ρ c main_arg2 (by decide)).trans (w1_arg2 m ρ c)
theorem w2_arg5 : V2 m ρ c main_arg5 = (m ((c : Thread nD τ).loc main_arg5)) := (W2_of_ne m ρ c main_arg5 (by decide)).trans (w1_arg5 m ρ c)
theorem w2_arg6 : V2 m ρ c main_arg6 = (m ((c : Thread nD τ).loc main_arg6)) := (W2_of_ne m ρ c main_arg6 (by decide)).trans (w1_arg6 m ρ c)
theorem w2_arg7 : V2 m ρ c main_arg7 = (m ((c : Thread nD τ).loc main_arg7)) := (W2_of_ne m ρ c main_arg7 (by decide)).trans (w1_arg7 m ρ c)
theorem w2_arg8 : V2 m ρ c main_arg8 = (m ((c : Thread nD τ).loc main_arg8)) := (W2_of_ne m ρ c main_arg8 (by decide)).trans (w1_arg8 m ρ c)

/-! ## After the second host stretch -/

set_option maxHeartbeats 4000000 in
theorem w3_agg : V3 m ρ c main_v31
    = agg (V2 m ρ c main_arg1) (V2 m ρ c main_arg2) (V2 m ρ c main_v21) := by
  show StableHlo.after hostOps1 (W2 m ρ c) (Proc.devRef .tc main_v31) = _
  after_results_simp <;> rfl
theorem w3_h : V3 m ρ c main_v21 = V2 m ρ c main_v21 := by
  show StableHlo.after hostOps1 (W2 m ρ c) (Proc.devRef .tc main_v21) = _
  after_results <;> rfl
theorem w3_scale : V3 m ρ c main_v8 = V2 m ρ c main_v8 := by
  show StableHlo.after hostOps1 (W2 m ρ c) (Proc.devRef .tc main_v8) = _
  after_results <;> rfl
theorem w3_wt : V3 m ρ c main_v32 = wt128 (V2 m ρ c main_arg5) := by
  show StableHlo.after hostOps1 (W2 m ρ c) (Proc.devRef .tc main_v32) = _
  after_results <;> rfl
theorem w3_row : V3 m ρ c main_v33 = row128 (V2 m ρ c main_arg6) := by
  show StableHlo.after hostOps1 (W2 m ρ c) (Proc.devRef .tc main_v33) = _
  after_results <;> rfl
theorem w3_arg1 : V3 m ρ c main_arg1 = V2 m ρ c main_arg1 := by
  show StableHlo.after hostOps1 (W2 m ρ c) (Proc.devRef .tc main_arg1) = _
  after_results <;> rfl
theorem w3_arg2 : V3 m ρ c main_arg2 = V2 m ρ c main_arg2 := by
  show StableHlo.after hostOps1 (W2 m ρ c) (Proc.devRef .tc main_arg2) = _
  after_results <;> rfl
theorem w3_arg7 : V3 m ρ c main_arg7 = V2 m ρ c main_arg7 := by
  show StableHlo.after hostOps1 (W2 m ρ c) (Proc.devRef .tc main_arg7) = _
  after_results <;> rfl
theorem w3_arg8 : V3 m ρ c main_arg8 = V2 m ρ c main_arg8 := by
  show StableHlo.after hostOps1 (W2 m ρ c) (Proc.devRef .tc main_arg8) = _
  after_results <;> rfl

/-! ## After the second region -/

include hr hn hl0 hl1 hr0 hr1 in
/-- The second region's output: the second hidden features. -/
theorem w4_h : V4 m ρ c main_v34
    = hidden D hs hβ hz (m ((c : Thread nD τ).loc main_arg1)) (m ((c : Thread nD τ).loc main_arg2)) (hidden D hs hβ hz (m ((c : Thread nD τ).loc main_arg1)) (m ((c : Thread nD τ).loc main_arg2)) (m ((c : Thread nD τ).loc main_arg0)) (m ((c : Thread nD τ).loc main_arg3)) (m ((c : Thread nD τ).loc main_arg4))) (m ((c : Thread nD τ).loc main_arg5)) (m ((c : Thread nD τ).loc main_arg6)) := by
  refine (W4_arr m ρ c 5).trans ((Layer1.final (V3 m ρ) D hr hn hl0 hl1 hr0 hr1 hs hβ hz c).trans ?_)
  unfold Layer1.stage
  rw [w3_agg, w3_h, w3_scale, w3_wt, w3_row, w2_h m ρ c D hr hn hl0 hl1 hr0 hr1 hs hβ hz, w2_scale, w2_arg1, w2_arg2, w2_arg5, w2_arg6]; rfl
theorem w4_scale : V4 m ρ c main_v8 = scale (m ((c : Thread nD τ).loc main_arg2)) :=
  ((W4_arr m ρ c 2).trans (((dat1 (V3 m ρ) c).arrAt_in 2 rfl _).trans (A_eq1 (V3 m ρ) c 2))).trans ((w3_scale m ρ c).trans (w2_scale m ρ c))
theorem w4_arg1 : V4 m ρ c main_arg1 = (m ((c : Thread nD τ).loc main_arg1)) :=
  (W4_of_ne m ρ c main_arg1 (by decide)).trans ((w3_arg1 m ρ c).trans (w2_arg1 m ρ c))
theorem w4_arg2 : V4 m ρ c main_arg2 = (m ((c : Thread nD τ).loc main_arg2)) :=
  (W4_of_ne m ρ c main_arg2 (by decide)).trans ((w3_arg2 m ρ c).trans (w2_arg2 m ρ c))
theorem w4_arg7 : V4 m ρ c main_arg7 = (m ((c : Thread nD τ).loc main_arg7)) :=
  (W4_of_ne m ρ c main_arg7 (by decide)).trans ((w3_arg7 m ρ c).trans (w2_arg7 m ρ c))
theorem w4_arg8 : V4 m ρ c main_arg8 = (m ((c : Thread nD τ).loc main_arg8)) :=
  (W4_of_ne m ρ c main_arg8 (by decide)).trans ((w3_arg8 m ρ c).trans (w2_arg8 m ρ c))

/-! ## After the third host stretch -/

set_option maxHeartbeats 4000000 in
theorem w5_agg : V5 m ρ c main_v44
    = agg (V4 m ρ c main_arg1) (V4 m ρ c main_arg2) (V4 m ρ c main_v34) := by
  show StableHlo.after hostOps2 (W4 m ρ c) (Proc.devRef .tc main_v44) = _
  after_results_simp <;> rfl
theorem w5_h : V5 m ρ c main_v34 = V4 m ρ c main_v34 := by
  show StableHlo.after hostOps2 (W4 m ρ c) (Proc.devRef .tc main_v34) = _
  after_results <;> rfl
theorem w5_scale : V5 m ρ c main_v8 = V4 m ρ c main_v8 := by
  show StableHlo.after hostOps2 (W4 m ρ c) (Proc.devRef .tc main_v8) = _
  after_results <;> rfl
theorem w5_wt : V5 m ρ c main_v45 = wt64 (V4 m ρ c main_arg7) := by
  show StableHlo.after hostOps2 (W4 m ρ c) (Proc.devRef .tc main_v45) = _
  after_results <;> rfl
theorem w5_row : V5 m ρ c main_v46 = row64 (V4 m ρ c main_arg8) := by
  show StableHlo.after hostOps2 (W4 m ρ c) (Proc.devRef .tc main_v46) = _
  after_results <;> rfl

/-! ## After the third region: the result -/

include hr hn hl0 hl1 hr0 hr1 hr' hn' hl0' hl1' hr0' hr1' in
/-- The program's result array at the last boundary is the network of the launch contents of its arguments. -/
theorem result : V6 m ρ c main_v47 = net D D' hs hβ hβ' hz (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W6_arr m ρ c 5).trans ((Layer2.final (V5 m ρ) D' hr' hn' hl0' hl1' hr0' hr1' hs hβ' c).trans ?_)
  unfold Layer2.stage
  rw [w5_agg, w5_h, w5_scale, w5_wt, w5_row, w4_h m ρ c D hr hn hl0 hl1 hr0 hr1 hs hβ hz, w4_scale, w4_arg1, w4_arg2, w4_arg7, w4_arg8]; rfl

end Cert.KernelIdeal.Out

end
-- ==== Proof.RefNet.lean ====
/-
  The reference computes the same network.

  The generated run of the reference states its result as the host operations' composed term of the arguments. That term
  is the network `net` — the scale column, the three aggregations, the three dense stages — taken at the reference's own
  dimension records: the two texts spell the same operations in the same order, so the equation is by unfolding the
  definitions. The product records' operand-index facts, which the kernel side needs about them, are the ones the
  generated read-at-an-index module proves.
-/
import proofs.«150860_j5944234737795_1_alg».proof.Proof.Gen.ReferenceIdeal.Run
import proofs.«150860_j5944234737795_1_alg».proof.Proof.Gen.ReferenceIdeal.Read
import proofs.«150860_j5944234737795_1_alg».proof.Proof.Gen.KernelIdeal
import proofs.«150860_j5944234737795_1_alg».proof.Proof.HostFns

set_option maxRecDepth 16384

noncomputable section

namespace Cert.ReferenceIdeal.RefNet

open Idealize.ShloMosaic Idealize.ShloMosaic.TcCoe Idealize.SL.Sem
open Cert.ReferenceIdeal Cert.ReferenceIdeal.Gen

/-- The reference's result, on every device, is the network of its arguments' launch contents. -/
theorem result (m : (ℓ : Loc nD τ sig) → Buf (Elt Ideal) ℓ) (c : Dev nD) :
    Cert.ReferenceIdeal.Value.res_main_v66 (F := Ideal) m c
      = Cert.KernelIdeal.Net.net (F := Ideal)
          dot_S100000x128_S128x128_S100000x128_1_0_0_1_n_n dot_S100000x128_S128x64_S100000x64_1_0_0_1_n_n
          bcast_S100000x1_S100000x128_0_1 bcast_S1x128_S100000x128_0_1 bcast_S1x64_S100000x64_0_1 bcast_S_S100000x128
          (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8)) := by
  unfold Cert.ReferenceIdeal.Value.res_main_v66
  rfl

end Cert.ReferenceIdeal.RefNet

end
-- ==== Proof.lean ====
/-
  A three-layer graph network (GraphSAGE with the mean-style aggregator): each layer sums, at every node, the features
  of its in-neighbours and its own, scales the sum by one over the in-degree plus one, and applies a linear map with a
  bias — followed, in the two hidden layers, by the maximum with zero.

  The kernel program does the irregular part (the degree count, the gather of the sources' rows, the scatter-add at the
  destinations) on the host, exactly as the reference does, and the dense part of each layer in a pipelined region over
  blocks of 4000 nodes: the region's body adds the two feature blocks, scales them by the block of the scale column,
  rounds to the narrower format, multiplies into the (rounded, transposed) weights from a zero accumulator, adds the bias
  row and takes the maximum with zero. On the extended reals the roundings are the identity and the product into a zero
  accumulator is the host's product, so each region leaves, in its output array, the reference's dense stage of the very
  arrays it was entered with (Proof/Region0–2 over Proof/Block, Proof/Payload, Proof/Dense). Walking the boundaries between
  host stretches and regions (Proof/KernelValue) the program's result is the network `net` of its nine arguments
  (Proof/HostFns), and the reference's generated run states the same term (Proof/RefNet). No algebraic law joins the two
  sides beyond the definitions, so the precondition is never opened.

  The three frames are the generated ones (the reference's: its generated run with the result dropped); the idealized
  kernel program is the kernel program's own text read on the extended reals (no operation was rewritten), so the
  idealization claim is trivial.
-/
import proofs.«150860_j5944234737795_1_alg».proof.Defs
import proofs.«150860_j5944234737795_1_alg».proof.Proof.Gen.Kernel
import proofs.«150860_j5944234737795_1_alg».proof.Proof.Gen.Kernel.Skeleton
import proofs.«150860_j5944234737795_1_alg».proof.Proof.Gen.Kernel.Launch
import proofs.«150860_j5944234737795_1_alg».proof.Proof.Gen.Kernel.Points
import proofs.«150860_j5944234737795_1_alg».proof.Proof.Gen.Kernel.Frame
import proofs.«150860_j5944234737795_1_alg».proof.Proof.Gen.KernelIdeal
import proofs.«150860_j5944234737795_1_alg».proof.Proof.Gen.KernelIdeal.Skeleton
import proofs.«150860_j5944234737795_1_alg».proof.Proof.Gen.KernelIdeal.Launch
import proofs.«150860_j5944234737795_1_alg».proof.Proof.Gen.KernelIdeal.Points
import proofs.«150860_j5944234737795_1_alg».proof.Proof.Gen.KernelIdeal.Frame
import proofs.«150860_j5944234737795_1_alg».proof.Proof.Gen.ReferenceIdeal
import proofs.«150860_j5944234737795_1_alg».proof.Proof.Gen.ReferenceIdeal.Run
import proofs.«150860_j5944234737795_1_alg».proof.Proof.Gen.ReferenceIdeal.Read
import proofs.«150860_j5944234737795_1_alg».proof.Proof.Gen.Pre_finite_inputs
import proofs.«150860_j5944234737795_1_alg».proof.Proof.KernelRun
import proofs.«150860_j5944234737795_1_alg».proof.Proof.KernelValue
import proofs.«150860_j5944234737795_1_alg».proof.Proof.RefNet
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- No operation was rewritten in the idealized program: the claim is `True`. -/
theorem preserves : Cert.preserves_Kernel_KernelIdeal := trivial

/-- Both programs end with the network of the arguments in their result arrays. -/
theorem algebraic : Cert.algebraic_KernelIdeal_ReferenceIdeal := by
  intro m ρ m' ρ' _ hagree
  refine ⟨fun c => Cert.KernelIdeal.Net.net (F := Ideal)
      Cert.ReferenceIdeal.dot_S100000x128_S128x128_S100000x128_1_0_0_1_n_n Cert.ReferenceIdeal.dot_S100000x128_S128x64_S100000x64_1_0_0_1_n_n
      Cert.ReferenceIdeal.Facts₀.bcast_S100000x1_S100000x128_0_1 Cert.ReferenceIdeal.Facts₀.bcast_S1x128_S100000x128_0_1
      Cert.ReferenceIdeal.Facts₀.bcast_S1x64_S100000x64_0_1 Cert.ReferenceIdeal.Facts₀.bcast_S_S100000x128
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8)), ?_, ?_⟩
  · refine (θ_run Cert.KernelIdeal.defs _ _).mono (fun r h c => ⟨(h c).1.trans ?_, (h c).2⟩) (Cert.KernelIdeal.Out.run (F := Ideal) m ρ)
    exact Cert.KernelIdeal.Out.result m ρ c
      Cert.ReferenceIdeal.dot_S100000x128_S128x128_S100000x128_1_0_0_1_n_n rfl rfl
      Cert.ReferenceIdeal.Read.lhs_main_v23_0 Cert.ReferenceIdeal.Read.lhs_main_v23_1
      Cert.ReferenceIdeal.Read.rhs_main_v23_0 Cert.ReferenceIdeal.Read.rhs_main_v23_1
      Cert.ReferenceIdeal.dot_S100000x128_S128x64_S100000x64_1_0_0_1_n_n rfl rfl
      Cert.ReferenceIdeal.Read.lhs_main_v63_0 Cert.ReferenceIdeal.Read.lhs_main_v63_1
      Cert.ReferenceIdeal.Read.rhs_main_v63_0 Cert.ReferenceIdeal.Read.rhs_main_v63_1
      Cert.ReferenceIdeal.Facts₀.bcast_S100000x1_S100000x128_0_1 Cert.ReferenceIdeal.Facts₀.bcast_S1x128_S100000x128_0_1
      Cert.ReferenceIdeal.Facts₀.bcast_S1x64_S100000x64_0_1 Cert.ReferenceIdeal.Facts₀.bcast_S_S100000x128
  · refine (θ_run Cert.ReferenceIdeal.defs _ _).mono (fun r h c => ⟨(h c).1.trans ?_, (h c).2⟩)
      (Cert.ReferenceIdeal.Value.run (F := Ideal) m' ρ')
    rw [Cert.ReferenceIdeal.RefNet.result m' c, (hagree c).1, (hagree c).2.1, (hagree c).2.2.1, (hagree c).2.2.2.1,
      (hagree c).2.2.2.2.1, (hagree c).2.2.2.2.2.1, (hagree c).2.2.2.2.2.2.1, (hagree c).2.2.2.2.2.2.2.1,
      (hagree c).2.2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
